-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v214)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v214) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x256 : Shape := ⟨2, ![512, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S256x40 1) : IVec S_ 1 :=
  let main_c_5 : IVec S_ 1 := constantI S_ 1 1#1
  let main_v17 : IVec S_ 1 := (fun x v => Host.reduce IntOp.andi x v reducesTo_S256x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x256 .f32) (main_arg3 : FVec F S256 .f32) (main_arg4 : FVec F S256x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x40 .f32 := Host.absf main_arg4
  let main_cst_4 : FVec F S_ .f32 := constant S_ .f32 0x7F800000#32
  let main_v15 : FVec F S256x40 .f32 := broadcastInDim S256x40 ![] bcast_S_S256x40 main_cst_4
  let main_v16 : IVec S256x40 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x256 : Shape := ⟨2, ![512, 256]⟩
abbrev S256 : Shape := ⟨1, ![256]⟩
abbrev S256x40 : Shape := ⟨2, ![256, 40]⟩
abbrev S40 : Shape := ⟨1, ![40]⟩
abbrev S1x256 : Shape := ⟨2, ![1, 256]⟩
abbrev S1x40 : Shape := ⟨2, ![1, 40]⟩
abbrev S100000x40 : Shape := ⟨2, ![100000, 40]⟩
abbrev S2000x512 : Shape := ⟨2, ![2000, 512]⟩
abbrev S2000x40 : Shape := ⟨2, ![2000, 40]⟩
abbrev S2000x256 : Shape := ⟨2, ![2000, 256]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x40 : Shape := ⟨2, ![1700000, 40]⟩

abbrev nBuf : Space → Nat
  | .hbm => 281
  | .vmem => 8
  | .smem => 0
  | _ => 0

abbrev hbmTy0_0 (i : Nat) : BufTy := match i % 128 with
  | 0 => ⟨S100000x512, .f32⟩
  | 1 => ⟨S2x1600000, .i32⟩
  | 2 => ⟨S512x256, .f32⟩
  | 3 => ⟨S256, .f32⟩
  | 4 => ⟨S256x40, .f32⟩
  | 5 => ⟨S40, .f32⟩
  | 6 => ⟨S512x256, .bf16⟩
  | 7 => ⟨S256x40, .bf16⟩
  | 8 => ⟨S1x256, .f32⟩
  | 9 => ⟨S1x40, .f32⟩
  | 10 => ⟨S100000x40, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S1700000x1, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x40, .f32⟩
  | 61 => ⟨S1700000x40, .f32⟩
  | 62 => ⟨S1700000x40, .f32⟩
  | 63 => ⟨S_, .f32⟩
  | 64 => ⟨S100000x40, .f32⟩
  | 65 => ⟨S1700000x1, .i32⟩
  | 66 => ⟨S100000x40, .f32⟩
  | 67 => ⟨S_, .f32⟩
  | 68 => ⟨S100000x40, .f32⟩
  | 69 => ⟨S100000x40, .f32⟩
  | 70 => ⟨S_, .f32⟩
  | 71 => ⟨S100000x40, .f32⟩
  | 72 => ⟨S100000x40, .f32⟩
  | 73 => ⟨S100000x40, .f32⟩
  | 74 => ⟨S1700000x1, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x40, .f32⟩
  | 84 => ⟨S1700000x40, .f32⟩
  | 85 => ⟨S1700000x40, .f32⟩
  | 86 => ⟨S_, .f32⟩
  | 87 => ⟨S100000x40, .f32⟩
  | 88 => ⟨S1700000x1, .i32⟩
  | 89 => ⟨S100000x40, .f32⟩
  | 90 => ⟨S_, .f32⟩
  | 91 => ⟨S100000x40, .f32⟩
  | 92 => ⟨S100000x40, .f32⟩
  | 93 => ⟨S_, .f32⟩
  | 94 => ⟨S100000x40, .f32⟩
  | 95 => ⟨S100000x40, .f32⟩
  | 96 => ⟨S100000x40, .f32⟩
  | 97 => ⟨S1700000x1, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x40, .f32⟩
  | 107 => ⟨S1700000x40, .f32⟩
  | 108 => ⟨S1700000x40, .f32⟩
  | 109 => ⟨S_, .f32⟩
  | 110 => ⟨S100000x40, .f32⟩
  | 111 => ⟨S1700000x1, .i32⟩
  | 112 => ⟨S100000x40, .f32⟩
  | 113 => ⟨S_, .f32⟩
  | 114 => ⟨S100000x40, .f32⟩
  | 115 => ⟨S100000x40, .f32⟩
  | 116 => ⟨S_, .f32⟩
  | 117 => ⟨S100000x40, .f32⟩
  | 118 => ⟨S100000x40, .f32⟩
  | 119 => ⟨S100000x40, .f32⟩
  | 120 => ⟨S1700000x1, .f32⟩
  | 121 => ⟨S_, .i32⟩
  | 122 => ⟨S1700000, .i32⟩
  | 123 => ⟨S1700000, .i1⟩
  | 124 => ⟨S_, .i32⟩
  | 125 => ⟨S1700000, .i32⟩
  | 126 => ⟨S1700000, .i32⟩
  | 127 => ⟨S1700000, .i32⟩
  | _ => ⟨S100000x512, .f32⟩

abbrev hbmTy0_1 (i : Nat) : BufTy := match i % 128 with
  | 0 => ⟨S1700000x1, .i32⟩
  | 1 => ⟨S1700000x40, .f32⟩
  | 2 => ⟨S1700000x40, .f32⟩
  | 3 => ⟨S1700000x40, .f32⟩
  | 4 => ⟨S_, .f32⟩
  | 5 => ⟨S100000x40, .f32⟩
  | 6 => ⟨S1700000x1, .i32⟩
  | 7 => ⟨S100000x40, .f32⟩
  | 8 => ⟨S_, .f32⟩
  | 9 => ⟨S100000x40, .f32⟩
  | 10 => ⟨S100000x40, .f32⟩
  | 11 => ⟨S_, .f32⟩
  | 12 => ⟨S100000x40, .f32⟩
  | 13 => ⟨S100000x40, .f32⟩
  | 14 => ⟨S100000x40, .f32⟩
  | 15 => ⟨S1700000x1, .f32⟩
  | 16 => ⟨S_, .i32⟩
  | 17 => ⟨S1700000, .i32⟩
  | 18 => ⟨S1700000, .i1⟩
  | 19 => ⟨S_, .i32⟩
  | 20 => ⟨S1700000, .i32⟩
  | 21 => ⟨S1700000, .i32⟩
  | 22 => ⟨S1700000, .i32⟩
  | 23 => ⟨S1700000x1, .i32⟩
  | 24 => ⟨S1700000x40, .f32⟩
  | 25 => ⟨S1700000x40, .f32⟩
  | 26 => ⟨S1700000x40, .f32⟩
  | 27 => ⟨S_, .f32⟩
  | 28 => ⟨S100000x40, .f32⟩
  | 29 => ⟨S1700000x1, .i32⟩
  | 30 => ⟨S100000x40, .f32⟩
  | 31 => ⟨S_, .f32⟩
  | 32 => ⟨S100000x40, .f32⟩
  | 33 => ⟨S100000x40, .f32⟩
  | 34 => ⟨S_, .f32⟩
  | 35 => ⟨S100000x40, .f32⟩
  | 36 => ⟨S100000x40, .f32⟩
  | 37 => ⟨S100000x40, .f32⟩
  | 38 => ⟨S1700000x1, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000x40, .f32⟩
  | 48 => ⟨S1700000x40, .f32⟩
  | 49 => ⟨S1700000x40, .f32⟩
  | 50 => ⟨S_, .f32⟩
  | 51 => ⟨S100000x40, .f32⟩
  | 52 => ⟨S1700000x1, .i32⟩
  | 53 => ⟨S100000x40, .f32⟩
  | 54 => ⟨S_, .f32⟩
  | 55 => ⟨S100000x40, .f32⟩
  | 56 => ⟨S100000x40, .f32⟩
  | 57 => ⟨S_, .f32⟩
  | 58 => ⟨S100000x40, .f32⟩
  | 59 => ⟨S100000x40, .f32⟩
  | 60 => ⟨S100000x40, .f32⟩
  | 61 => ⟨S1700000x1, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000x40, .f32⟩
  | 71 => ⟨S1700000x40, .f32⟩
  | 72 => ⟨S1700000x40, .f32⟩
  | 73 => ⟨S_, .f32⟩
  | 74 => ⟨S100000x40, .f32⟩
  | 75 => ⟨S1700000x1, .i32⟩
  | 76 => ⟨S100000x40, .f32⟩
  | 77 => ⟨S_, .f32⟩
  | 78 => ⟨S100000x40, .f32⟩
  | 79 => ⟨S100000x40, .f32⟩
  | 80 => ⟨S_, .f32⟩
  | 81 => ⟨S100000x40, .f32⟩
  | 82 => ⟨S100000x40, .f32⟩
  | 83 => ⟨S100000x40, .f32⟩
  | 84 => ⟨S1700000x1, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000x40, .f32⟩
  | 94 => ⟨S1700000x40, .f32⟩
  | 95 => ⟨S1700000x40, .f32⟩
  | 96 => ⟨S_, .f32⟩
  | 97 => ⟨S100000x40, .f32⟩
  | 98 => ⟨S1700000x1, .i32⟩
  | 99 => ⟨S100000x40, .f32⟩
  | 100 => ⟨S_, .f32⟩
  | 101 => ⟨S100000x40, .f32⟩
  | 102 => ⟨S100000x40, .f32⟩
  | 103 => ⟨S_, .f32⟩
  | 104 => ⟨S100000x40, .f32⟩
  | 105 => ⟨S100000x40, .f32⟩
  | 106 => ⟨S100000x40, .f32⟩
  | 107 => ⟨S1700000x1, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x40, .f32⟩
  | 117 => ⟨S1700000x40, .f32⟩
  | 118 => ⟨S1700000x40, .f32⟩
  | 119 => ⟨S_, .f32⟩
  | 120 => ⟨S100000x40, .f32⟩
  | 121 => ⟨S1700000x1, .i32⟩
  | 122 => ⟨S100000x40, .f32⟩
  | 123 => ⟨S_, .f32⟩
  | 124 => ⟨S100000x40, .f32⟩
  | 125 => ⟨S100000x40, .f32⟩
  | 126 => ⟨S_, .f32⟩
  | 127 => ⟨S100000x40, .f32⟩
  | _ => ⟨S100000x512, .f32⟩

abbrev hbmTy0_2 (i : Nat) : BufTy := match i % 128 with
  | 0 => ⟨S100000x40, .f32⟩
  | 1 => ⟨S100000x40, .f32⟩
  | 2 => ⟨S1700000x1, .f32⟩
  | 3 => ⟨S_, .i32⟩
  | 4 => ⟨S1700000, .i32⟩
  | 5 => ⟨S1700000, .i1⟩
  | 6 => ⟨S_, .i32⟩
  | 7 => ⟨S1700000, .i32⟩
  | 8 => ⟨S1700000, .i32⟩
  | 9 => ⟨S1700000, .i32⟩
  | 10 => ⟨S1700000x1, .i32⟩
  | 11 => ⟨S1700000x40, .f32⟩
  | 12 => ⟨S1700000x40, .f32⟩
  | 13 => ⟨S1700000x40, .f32⟩
  | 14 => ⟨S_, .f32⟩
  | 15 => ⟨S100000x40, .f32⟩
  | 16 => ⟨S1700000x1, .i32⟩
  | 17 => ⟨S100000x40, .f32⟩
  | 18 => ⟨S_, .f32⟩
  | 19 => ⟨S100000x40, .f32⟩
  | 20 => ⟨S100000x40, .f32⟩
  | 21 => ⟨S_, .f32⟩
  | 22 => ⟨S100000x40, .f32⟩
  | 23 => ⟨S100000x40, .f32⟩
  | 24 => ⟨S100000x40, .f32⟩
  | _ => ⟨S100000x512, .f32⟩

abbrev hbmTy (i : Nat) : BufTy := match i / 128 with
  | 0 => hbmTy0_0 i
  | 1 => hbmTy0_1 i
  | 2 => hbmTy0_2 i
  | _ => ⟨S100000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x256, .bf16⟩
  | .local _ .vmem, ⟨3, _⟩ => ⟨S1x256, .f32⟩
  | .local _ .vmem, ⟨4, _⟩ => ⟨S256x40, .bf16⟩
  | .local _ .vmem, ⟨5, _⟩ => ⟨S1x40, .f32⟩
  | .local _ .vmem, ⟨6, _⟩ => ⟨S2000x40, .f32⟩
  | .local _ .vmem, ⟨7, _⟩ => ⟨S2000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_14 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_16 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_18 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_19 : Ref sig .tc := ⟨.hbm, 113, rfl⟩
abbrev main_v84 : Ref sig .tc := ⟨.hbm, 114, rfl⟩
abbrev main_v85 : Ref sig .tc := ⟨.hbm, 115, rfl⟩
abbrev main_cst_20 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_c_21 : Ref sig .tc := ⟨.hbm, 121, rfl⟩
abbrev main_v90 : Ref sig .tc := ⟨.hbm, 122, rfl⟩
abbrev main_v91 : Ref sig .tc := ⟨.hbm, 123, rfl⟩
abbrev main_c_22 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_23 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_24 : Ref sig .tc := ⟨.hbm, 136, rfl⟩
abbrev main_v102 : Ref sig .tc := ⟨.hbm, 137, rfl⟩
abbrev main_v103 : Ref sig .tc := ⟨.hbm, 138, rfl⟩
abbrev main_cst_25 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_c_26 : Ref sig .tc := ⟨.hbm, 144, rfl⟩
abbrev main_v108 : Ref sig .tc := ⟨.hbm, 145, rfl⟩
abbrev main_v109 : Ref sig .tc := ⟨.hbm, 146, rfl⟩
abbrev main_c_27 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_28 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_29 : Ref sig .tc := ⟨.hbm, 159, rfl⟩
abbrev main_v120 : Ref sig .tc := ⟨.hbm, 160, rfl⟩
abbrev main_v121 : Ref sig .tc := ⟨.hbm, 161, rfl⟩
abbrev main_cst_30 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_c_31 : Ref sig .tc := ⟨.hbm, 167, rfl⟩
abbrev main_v126 : Ref sig .tc := ⟨.hbm, 168, rfl⟩
abbrev main_v127 : Ref sig .tc := ⟨.hbm, 169, rfl⟩
abbrev main_c_32 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_cst_33 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_cst_34 : Ref sig .tc := ⟨.hbm, 182, rfl⟩
abbrev main_v138 : Ref sig .tc := ⟨.hbm, 183, rfl⟩
abbrev main_v139 : Ref sig .tc := ⟨.hbm, 184, rfl⟩
abbrev main_cst_35 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_c_36 : Ref sig .tc := ⟨.hbm, 190, rfl⟩
abbrev main_v144 : Ref sig .tc := ⟨.hbm, 191, rfl⟩
abbrev main_v145 : Ref sig .tc := ⟨.hbm, 192, rfl⟩
abbrev main_c_37 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_cst_38 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_cst_39 : Ref sig .tc := ⟨.hbm, 205, rfl⟩
abbrev main_v156 : Ref sig .tc := ⟨.hbm, 206, rfl⟩
abbrev main_v157 : Ref sig .tc := ⟨.hbm, 207, rfl⟩
abbrev main_cst_40 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_c_41 : Ref sig .tc := ⟨.hbm, 213, rfl⟩
abbrev main_v162 : Ref sig .tc := ⟨.hbm, 214, rfl⟩
abbrev main_v163 : Ref sig .tc := ⟨.hbm, 215, rfl⟩
abbrev main_c_42 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_cst_43 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_cst_44 : Ref sig .tc := ⟨.hbm, 228, rfl⟩
abbrev main_v174 : Ref sig .tc := ⟨.hbm, 229, rfl⟩
abbrev main_v175 : Ref sig .tc := ⟨.hbm, 230, rfl⟩
abbrev main_cst_45 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_c_46 : Ref sig .tc := ⟨.hbm, 236, rfl⟩
abbrev main_v180 : Ref sig .tc := ⟨.hbm, 237, rfl⟩
abbrev main_v181 : Ref sig .tc := ⟨.hbm, 238, rfl⟩
abbrev main_c_47 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_cst_48 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_cst_49 : Ref sig .tc := ⟨.hbm, 251, rfl⟩
abbrev main_v192 : Ref sig .tc := ⟨.hbm, 252, rfl⟩
abbrev main_v193 : Ref sig .tc := ⟨.hbm, 253, rfl⟩
abbrev main_cst_50 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_c_51 : Ref sig .tc := ⟨.hbm, 259, rfl⟩
abbrev main_v198 : Ref sig .tc := ⟨.hbm, 260, rfl⟩
abbrev main_v199 : Ref sig .tc := ⟨.hbm, 261, rfl⟩
abbrev main_c_52 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_cst_53 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_cst_54 : Ref sig .tc := ⟨.hbm, 274, rfl⟩
abbrev main_v210 : Ref sig .tc := ⟨.hbm, 275, rfl⟩
abbrev main_v211 : Ref sig .tc := ⟨.hbm, 276, rfl⟩
abbrev main_cst_55 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x40 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x40 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S256_S1x256 : S256.ShapeCasts S1x256
  shapeCasts_S40_S1x40 : S40.ShapeCasts S1x40
  inb_S2000x512_S2000x512_0_0 : ∀ a, (![0, 0] : Fin 2 → Nat) a + S2000x512.size a ≤ S2000x512.size a
  h_S2000x512 : 0 < S2000x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x40_S256x40_0_0 : ∀ a, (![0, 0] : Fin 2 → Nat) a + S256x40.size a ≤ S256x40.size a
  h_S256x40 : 0 < S256x40.numel
  shapeCasts_S256x40_S256x40 : S256x40.ShapeCasts S256x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  dot_S2000x512_S512x256_S2000x256_1_0_0_1_n_n_wf : DotDims.WF S2000x512 S512x256 S2000x256 [1] [0] [0] [1] [] []
  dot_S2000x256_S256x40_S2000x40_1_0_0_1_n_n_wf : DotDims.WF S2000x256 S256x40 S2000x40 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x40.size a ≤ S256x40.size a
  hwx0_3 : ∀ i : grid0.Coords, EltTy.bits .bf16 = 32 ∨ (Rect.block (s := S256x40) S256x40.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x40.size a ≤ S1x40.size a
  hwx0_4 : ∀ i : grid0.Coords, EltTy.bits .f32 = 32 ∨ (Rect.block (s := S1x40) S1x40.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x40.size a ≤ S100000x40.size a
  hwx0_5 : ∀ i : grid0.Coords, EltTy.bits .f32 = 32 ∨ (Rect.block (s := S100000x40) S2000x40.size (cc0_transform_5 i) (hinb0_5 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2000x40.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x256 : Shape := ⟨2, ![512, 256]⟩
abbrev S256 : Shape := ⟨1, ![256]⟩
abbrev S256x40 : Shape := ⟨2, ![256, 40]⟩
abbrev S40 : Shape := ⟨1, ![40]⟩
abbrev S100000x256 : Shape := ⟨2, ![100000, 256]⟩
abbrev S1x256 : Shape := ⟨2, ![1, 256]⟩
abbrev S_ : Shape := ⟨0, ![]⟩
abbrev S100000x40 : Shape := ⟨2, ![100000, 40]⟩
abbrev S1x40 : Shape := ⟨2, ![1, 40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x40 : Shape := ⟨2, ![1700000, 40]⟩

abbrev nBuf : Space → Nat
  | .hbm => 290
  | .vmem => 0
  | .smem => 0
  | _ => 0

abbrev hbmTy0_0 (i : Nat) : BufTy := match i % 128 with
  | 0 => ⟨S100000x512, .f32⟩
  | 1 => ⟨S2x1600000, .i32⟩
  | 2 => ⟨S512x256, .f32⟩
  | 3 => ⟨S256, .f32⟩
  | 4 => ⟨S256x40, .f32⟩
  | 5 => ⟨S40, .f32⟩
  | 6 => ⟨S100000x256, .f32⟩
  | 7 => ⟨S1x256, .f32⟩
  | 8 => ⟨S100000x256, .f32⟩
  | 9 => ⟨S100000x256, .f32⟩
  | 10 => ⟨S_, .f32⟩
  | 11 => ⟨S100000x256, .f32⟩
  | 12 => ⟨S100000x256, .f32⟩
  | 13 => ⟨S100000x40, .f32⟩
  | 14 => ⟨S1x40, .f32⟩
  | 15 => ⟨S100000x40, .f32⟩
  | 16 => ⟨S100000x40, .f32⟩
  | 17 => ⟨S_, .f32⟩
  | 18 => ⟨S100000x40, .f32⟩
  | 19 => ⟨S100000x40, .f32⟩
  | 20 => ⟨S100000, .i32⟩
  | 21 => ⟨S1x1600000, .i32⟩
  | 22 => ⟨S1600000, .i32⟩
  | 23 => ⟨S1700000, .i32⟩
  | 24 => ⟨S1x1600000, .i32⟩
  | 25 => ⟨S1600000, .i32⟩
  | 26 => ⟨S1700000, .i32⟩
  | 27 => ⟨S_, .f32⟩
  | 28 => ⟨S1700000, .f32⟩
  | 29 => ⟨S_, .f32⟩
  | 30 => ⟨S100000, .f32⟩
  | 31 => ⟨S1700000x1, .i32⟩
  | 32 => ⟨S100000, .f32⟩
  | 33 => ⟨S_, .f32⟩
  | 34 => ⟨S100000, .f32⟩
  | 35 => ⟨S100000, .i1⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S1700000x1, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000x40, .f32⟩
  | 70 => ⟨S1700000x40, .f32⟩
  | 71 => ⟨S1700000x40, .f32⟩
  | 72 => ⟨S_, .f32⟩
  | 73 => ⟨S100000x40, .f32⟩
  | 74 => ⟨S1700000x1, .i32⟩
  | 75 => ⟨S100000x40, .f32⟩
  | 76 => ⟨S_, .f32⟩
  | 77 => ⟨S100000x40, .f32⟩
  | 78 => ⟨S100000x40, .f32⟩
  | 79 => ⟨S_, .f32⟩
  | 80 => ⟨S100000x40, .f32⟩
  | 81 => ⟨S100000x40, .f32⟩
  | 82 => ⟨S100000x40, .f32⟩
  | 83 => ⟨S1700000x1, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000x40, .f32⟩
  | 93 => ⟨S1700000x40, .f32⟩
  | 94 => ⟨S1700000x40, .f32⟩
  | 95 => ⟨S_, .f32⟩
  | 96 => ⟨S100000x40, .f32⟩
  | 97 => ⟨S1700000x1, .i32⟩
  | 98 => ⟨S100000x40, .f32⟩
  | 99 => ⟨S_, .f32⟩
  | 100 => ⟨S100000x40, .f32⟩
  | 101 => ⟨S100000x40, .f32⟩
  | 102 => ⟨S_, .f32⟩
  | 103 => ⟨S100000x40, .f32⟩
  | 104 => ⟨S100000x40, .f32⟩
  | 105 => ⟨S100000x40, .f32⟩
  | 106 => ⟨S1700000x1, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x40, .f32⟩
  | 116 => ⟨S1700000x40, .f32⟩
  | 117 => ⟨S1700000x40, .f32⟩
  | 118 => ⟨S_, .f32⟩
  | 119 => ⟨S100000x40, .f32⟩
  | 120 => ⟨S1700000x1, .i32⟩
  | 121 => ⟨S100000x40, .f32⟩
  | 122 => ⟨S_, .f32⟩
  | 123 => ⟨S100000x40, .f32⟩
  | 124 => ⟨S100000x40, .f32⟩
  | 125 => ⟨S_, .f32⟩
  | 126 => ⟨S100000x40, .f32⟩
  | 127 => ⟨S100000x40, .f32⟩
  | _ => ⟨S100000x512, .f32⟩

abbrev hbmTy0_1 (i : Nat) : BufTy := match i % 128 with
  | 0 => ⟨S100000x40, .f32⟩
  | 1 => ⟨S1700000x1, .f32⟩
  | 2 => ⟨S_, .i32⟩
  | 3 => ⟨S1700000, .i32⟩
  | 4 => ⟨S1700000, .i1⟩
  | 5 => ⟨S_, .i32⟩
  | 6 => ⟨S1700000, .i32⟩
  | 7 => ⟨S1700000, .i32⟩
  | 8 => ⟨S1700000, .i32⟩
  | 9 => ⟨S1700000x1, .i32⟩
  | 10 => ⟨S1700000x40, .f32⟩
  | 11 => ⟨S1700000x40, .f32⟩
  | 12 => ⟨S1700000x40, .f32⟩
  | 13 => ⟨S_, .f32⟩
  | 14 => ⟨S100000x40, .f32⟩
  | 15 => ⟨S1700000x1, .i32⟩
  | 16 => ⟨S100000x40, .f32⟩
  | 17 => ⟨S_, .f32⟩
  | 18 => ⟨S100000x40, .f32⟩
  | 19 => ⟨S100000x40, .f32⟩
  | 20 => ⟨S_, .f32⟩
  | 21 => ⟨S100000x40, .f32⟩
  | 22 => ⟨S100000x40, .f32⟩
  | 23 => ⟨S100000x40, .f32⟩
  | 24 => ⟨S1700000x1, .f32⟩
  | 25 => ⟨S_, .i32⟩
  | 26 => ⟨S1700000, .i32⟩
  | 27 => ⟨S1700000, .i1⟩
  | 28 => ⟨S_, .i32⟩
  | 29 => ⟨S1700000, .i32⟩
  | 30 => ⟨S1700000, .i32⟩
  | 31 => ⟨S1700000, .i32⟩
  | 32 => ⟨S1700000x1, .i32⟩
  | 33 => ⟨S1700000x40, .f32⟩
  | 34 => ⟨S1700000x40, .f32⟩
  | 35 => ⟨S1700000x40, .f32⟩
  | 36 => ⟨S_, .f32⟩
  | 37 => ⟨S100000x40, .f32⟩
  | 38 => ⟨S1700000x1, .i32⟩
  | 39 => ⟨S100000x40, .f32⟩
  | 40 => ⟨S_, .f32⟩
  | 41 => ⟨S100000x40, .f32⟩
  | 42 => ⟨S100000x40, .f32⟩
  | 43 => ⟨S_, .f32⟩
  | 44 => ⟨S100000x40, .f32⟩
  | 45 => ⟨S100000x40, .f32⟩
  | 46 => ⟨S100000x40, .f32⟩
  | 47 => ⟨S1700000x1, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x40, .f32⟩
  | 57 => ⟨S1700000x40, .f32⟩
  | 58 => ⟨S1700000x40, .f32⟩
  | 59 => ⟨S_, .f32⟩
  | 60 => ⟨S100000x40, .f32⟩
  | 61 => ⟨S1700000x1, .i32⟩
  | 62 => ⟨S100000x40, .f32⟩
  | 63 => ⟨S_, .f32⟩
  | 64 => ⟨S100000x40, .f32⟩
  | 65 => ⟨S100000x40, .f32⟩
  | 66 => ⟨S_, .f32⟩
  | 67 => ⟨S100000x40, .f32⟩
  | 68 => ⟨S100000x40, .f32⟩
  | 69 => ⟨S100000x40, .f32⟩
  | 70 => ⟨S1700000x1, .f32⟩
  | 71 => ⟨S_, .i32⟩
  | 72 => ⟨S1700000, .i32⟩
  | 73 => ⟨S1700000, .i1⟩
  | 74 => ⟨S_, .i32⟩
  | 75 => ⟨S1700000, .i32⟩
  | 76 => ⟨S1700000, .i32⟩
  | 77 => ⟨S1700000, .i32⟩
  | 78 => ⟨S1700000x1, .i32⟩
  | 79 => ⟨S1700000x40, .f32⟩
  | 80 => ⟨S1700000x40, .f32⟩
  | 81 => ⟨S1700000x40, .f32⟩
  | 82 => ⟨S_, .f32⟩
  | 83 => ⟨S100000x40, .f32⟩
  | 84 => ⟨S1700000x1, .i32⟩
  | 85 => ⟨S100000x40, .f32⟩
  | 86 => ⟨S_, .f32⟩
  | 87 => ⟨S100000x40, .f32⟩
  | 88 => ⟨S100000x40, .f32⟩
  | 89 => ⟨S_, .f32⟩
  | 90 => ⟨S100000x40, .f32⟩
  | 91 => ⟨S100000x40, .f32⟩
  | 92 => ⟨S100000x40, .f32⟩
  | 93 => ⟨S1700000x1, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x40, .f32⟩
  | 103 => ⟨S1700000x40, .f32⟩
  | 104 => ⟨S1700000x40, .f32⟩
  | 105 => ⟨S_, .f32⟩
  | 106 => ⟨S100000x40, .f32⟩
  | 107 => ⟨S1700000x1, .i32⟩
  | 108 => ⟨S100000x40, .f32⟩
  | 109 => ⟨S_, .f32⟩
  | 110 => ⟨S100000x40, .f32⟩
  | 111 => ⟨S100000x40, .f32⟩
  | 112 => ⟨S_, .f32⟩
  | 113 => ⟨S100000x40, .f32⟩
  | 114 => ⟨S100000x40, .f32⟩
  | 115 => ⟨S100000x40, .f32⟩
  | 116 => ⟨S1700000x1, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000x40, .f32⟩
  | 126 => ⟨S1700000x40, .f32⟩
  | 127 => ⟨S1700000x40, .f32⟩
  | _ => ⟨S100000x512, .f32⟩

abbrev hbmTy0_2 (i : Nat) : BufTy := match i % 128 with
  | 0 => ⟨S_, .f32⟩
  | 1 => ⟨S100000x40, .f32⟩
  | 2 => ⟨S1700000x1, .i32⟩
  | 3 => ⟨S100000x40, .f32⟩
  | 4 => ⟨S_, .f32⟩
  | 5 => ⟨S100000x40, .f32⟩
  | 6 => ⟨S100000x40, .f32⟩
  | 7 => ⟨S_, .f32⟩
  | 8 => ⟨S100000x40, .f32⟩
  | 9 => ⟨S100000x40, .f32⟩
  | 10 => ⟨S100000x40, .f32⟩
  | 11 => ⟨S1700000x1, .f32⟩
  | 12 => ⟨S_, .i32⟩
  | 13 => ⟨S1700000, .i32⟩
  | 14 => ⟨S1700000, .i1⟩
  | 15 => ⟨S_, .i32⟩
  | 16 => ⟨S1700000, .i32⟩
  | 17 => ⟨S1700000, .i32⟩
  | 18 => ⟨S1700000, .i32⟩
  | 19 => ⟨S1700000x1, .i32⟩
  | 20 => ⟨S1700000x40, .f32⟩
  | 21 => ⟨S1700000x40, .f32⟩
  | 22 => ⟨S1700000x40, .f32⟩
  | 23 => ⟨S_, .f32⟩
  | 24 => ⟨S100000x40, .f32⟩
  | 25 => ⟨S1700000x1, .i32⟩
  | 26 => ⟨S100000x40, .f32⟩
  | 27 => ⟨S_, .f32⟩
  | 28 => ⟨S100000x40, .f32⟩
  | 29 => ⟨S100000x40, .f32⟩
  | 30 => ⟨S_, .f32⟩
  | 31 => ⟨S100000x40, .f32⟩
  | 32 => ⟨S100000x40, .f32⟩
  | 33 => ⟨S100000x40, .f32⟩
  | _ => ⟨S100000x512, .f32⟩

abbrev hbmTy (i : Nat) : BufTy := match i / 128 with
  | 0 => hbmTy0_0 i
  | 1 => hbmTy0_1 i
  | 2 => hbmTy0_2 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call1_cst : Ref sig .tc := ⟨.hbm, 17, rfl⟩
abbrev main_call1_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_call2_v0 : Ref sig .tc := ⟨.hbm, 38, rfl⟩
abbrev main_call2_v1 : Ref sig .tc := ⟨.hbm, 39, rfl⟩
abbrev main_v24 : Ref sig .tc := ⟨.hbm, 40, rfl⟩
abbrev main_c : Ref sig .tc := ⟨.hbm, 41, rfl⟩
abbrev main_v25 : Ref sig .tc := ⟨.hbm, 42, rfl⟩
abbrev main_v26 : Ref sig .tc := ⟨.hbm, 43, rfl⟩
abbrev main_c_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_6 : Ref sig .tc := ⟨.hbm, 61, rfl⟩
abbrev main_v41 : Ref sig .tc := ⟨.hbm, 62, rfl⟩
abbrev main_v42 : Ref sig .tc := ⟨.hbm, 63, rfl⟩
abbrev main_c_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_11 : Ref sig .tc := ⟨.hbm, 84, rfl⟩
abbrev main_v59 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_cst_15 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_16 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_18 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_cst_20 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_21 : Ref sig .tc := ⟨.hbm, 130, rfl⟩
abbrev main_v95 : Ref sig .tc := ⟨.hbm, 131, rfl⟩
abbrev main_v96 : Ref sig .tc := ⟨.hbm, 132, rfl⟩
abbrev main_c_22 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_23 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_24 : Ref sig .tc := ⟨.hbm, 145, rfl⟩
abbrev main_v107 : Ref sig .tc := ⟨.hbm, 146, rfl⟩
abbrev main_v108 : Ref sig .tc := ⟨.hbm, 147, rfl⟩
abbrev main_cst_25 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_c_26 : Ref sig .tc := ⟨.hbm, 153, rfl⟩
abbrev main_v113 : Ref sig .tc := ⟨.hbm, 154, rfl⟩
abbrev main_v114 : Ref sig .tc := ⟨.hbm, 155, rfl⟩
abbrev main_c_27 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_28 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_29 : Ref sig .tc := ⟨.hbm, 168, rfl⟩
abbrev main_v125 : Ref sig .tc := ⟨.hbm, 169, rfl⟩
abbrev main_v126 : Ref sig .tc := ⟨.hbm, 170, rfl⟩
abbrev main_cst_30 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_c_31 : Ref sig .tc := ⟨.hbm, 176, rfl⟩
abbrev main_v131 : Ref sig .tc := ⟨.hbm, 177, rfl⟩
abbrev main_v132 : Ref sig .tc := ⟨.hbm, 178, rfl⟩
abbrev main_c_32 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_cst_33 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_cst_34 : Ref sig .tc := ⟨.hbm, 191, rfl⟩
abbrev main_v143 : Ref sig .tc := ⟨.hbm, 192, rfl⟩
abbrev main_v144 : Ref sig .tc := ⟨.hbm, 193, rfl⟩
abbrev main_cst_35 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_c_36 : Ref sig .tc := ⟨.hbm, 199, rfl⟩
abbrev main_v149 : Ref sig .tc := ⟨.hbm, 200, rfl⟩
abbrev main_v150 : Ref sig .tc := ⟨.hbm, 201, rfl⟩
abbrev main_c_37 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_cst_38 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_cst_39 : Ref sig .tc := ⟨.hbm, 214, rfl⟩
abbrev main_v161 : Ref sig .tc := ⟨.hbm, 215, rfl⟩
abbrev main_v162 : Ref sig .tc := ⟨.hbm, 216, rfl⟩
abbrev main_cst_40 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_c_41 : Ref sig .tc := ⟨.hbm, 222, rfl⟩
abbrev main_v167 : Ref sig .tc := ⟨.hbm, 223, rfl⟩
abbrev main_v168 : Ref sig .tc := ⟨.hbm, 224, rfl⟩
abbrev main_c_42 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_cst_43 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_cst_44 : Ref sig .tc := ⟨.hbm, 237, rfl⟩
abbrev main_v179 : Ref sig .tc := ⟨.hbm, 238, rfl⟩
abbrev main_v180 : Ref sig .tc := ⟨.hbm, 239, rfl⟩
abbrev main_cst_45 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_c_46 : Ref sig .tc := ⟨.hbm, 245, rfl⟩
abbrev main_v185 : Ref sig .tc := ⟨.hbm, 246, rfl⟩
abbrev main_v186 : Ref sig .tc := ⟨.hbm, 247, rfl⟩
abbrev main_c_47 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_cst_48 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_cst_49 : Ref sig .tc := ⟨.hbm, 260, rfl⟩
abbrev main_v197 : Ref sig .tc := ⟨.hbm, 261, rfl⟩
abbrev main_v198 : Ref sig .tc := ⟨.hbm, 262, rfl⟩
abbrev main_cst_50 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_c_51 : Ref sig .tc := ⟨.hbm, 268, rfl⟩
abbrev main_v203 : Ref sig .tc := ⟨.hbm, 269, rfl⟩
abbrev main_v204 : Ref sig .tc := ⟨.hbm, 270, rfl⟩
abbrev main_c_52 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_cst_53 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_cst_54 : Ref sig .tc := ⟨.hbm, 283, rfl⟩
abbrev main_v215 : Ref sig .tc := ⟨.hbm, 284, rfl⟩
abbrev main_v216 : Ref sig .tc := ⟨.hbm, 285, rfl⟩
abbrev main_cst_55 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S_S100000x40 : S_.BroadcastsInDim S100000x40 (![] : Fin 0 → Fin S100000x40.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x40_0_1 : S1700000x1.BroadcastsInDim S1700000x40 (![0, 1] : Fin 2 → Fin S1700000x40.rank)
  dot_S100000x512_S512x256_S100000x256_1_0_0_1_n_n_wf : DotDims.WF S100000x512 S512x256 S100000x256 [1] [0] [0] [1] [] []
  dot_S100000x256_S256x40_S100000x40_1_0_0_1_n_n_wf : DotDims.WF S100000x256 S256x40 S100000x40 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x40_S100000x40_1_0_0_1_n_n : DotDims S100000x256 S256x40 S100000x40 where
  lhsContracting := [1]
  rhsContracting := [0]
  lhsNonContracting := [0]
  rhsNonContracting := [1]
  lhsBatch := []
  rhsBatch := []
  wf := dot_S100000x256_S256x40_S100000x40_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.LibTailOps.lean ====
import Idealize.ShloMosaic.Lib.Pipeline.FrameSuffix

/-!
# Straight lines of host operations that each write one buffer of their own

A stretch of host operations in which every operation allocates nothing and writes exactly one buffer, and that
buffer lies in a class `P` of references (for instance "declared at position eleven or later"), leaves every
reference outside `P` as it found it. The per-operation fact is stated so that it is closed by `rfl` and
`decide` on a literal operation, and a whole literal list by walking its cons cells once; what follows from it is
proved once, for any list and any length.
-/

namespace Cert.LibTailOps

open Idealize.ShloMosaic Idealize.ShloMosaic.StableHlo Idealize.ShloMosaic.TcCoe

variable {τ : Topo} {sig : RefSig} {Val : EltTy → Type}

/-- The operation allocates nothing and writes exactly one buffer, a TensorCore reference of class `P`. -/
def WritesOne (P : Ref sig .tc → Prop) (op : HloOp τ sig Val) : Prop :=
  op.fresh = ∅ ∧ ∃ y : Ref sig .tc, P y ∧ op.writes = {Proc.devRef .tc y}

/-- Such an operation writes no reference outside the class. -/
theorem WritesOne.not_mem {P : Ref sig .tc → Prop} {op : HloOp τ sig Val} (h : WritesOne P op)
    {r : Ref sig .tc} (hr : ¬ P r) : Proc.devRef (τ := τ) .tc r ∉ op.writes := by
  obtain ⟨-, y, hy, hw⟩ := h
  rw [hw, Finset.mem_singleton]
  intro e
  exact hr (Proc.devRef_injective _ e ▸ hy)

/-- A reference outside the class keeps its contents through a line of such operations. -/
theorem after_keeps {P : Ref sig .tc → Prop} (ops : List (HloOp τ sig Val)) (V : Valuation τ sig Val)
    (h : ops.Forall (WritesOne P)) {r : Ref sig .tc} (hr : ¬ P r) :
    after ops V (Proc.devRef .tc r) = V (Proc.devRef .tc r) :=
  after_of_forall_not_mem ops V fun op hop => ((List.forall_iff_forall_mem.mp h) op hop).not_mem hr

/-- Several lines, one after the other: every operation of every line has the property. -/
theorem forall_flatten {P : Ref sig .tc → Prop} :
    ∀ (opss : List (List (HloOp τ sig Val))), (opss.Forall fun ops => ops.Forall (WritesOne P)) →
      opss.flatten.Forall (WritesOne P) := by
  intro opss h
  rw [List.forall_iff_forall_mem] at h ⊢
  intro op hop
  obtain ⟨ops, hops, hop'⟩ := List.mem_flatten.mp hop
  exact (List.forall_iff_forall_mem.mp (h ops hops)) op hop'

/-- None of them allocates. -/
theorem fresh_of {P : Ref sig .tc → Prop} (opss : List (List (HloOp τ sig Val)))
    (h : opss.Forall fun ops => ops.Forall (WritesOne P)) :
    ∀ ops ∈ opss, ∀ op ∈ ops, op.fresh = ∅ := fun ops hops op hop =>
  ((List.forall_iff_forall_mem.mp ((List.forall_iff_forall_mem.mp h) ops hops)) op hop).1

/-- None of them writes a reference outside the class. -/
theorem keeps_of {P : Ref sig .tc → Prop} (opss : List (List (HloOp τ sig Val)))
    (h : opss.Forall fun ops => ops.Forall (WritesOne P)) {r : Ref sig .tc} (hr : ¬ P r) :
    ∀ ops ∈ opss, ∀ op ∈ ops, Proc.devRef (τ := τ) .tc r ∉ op.writes := fun ops hops op hop =>
  ((List.forall_iff_forall_mem.mp ((List.forall_iff_forall_mem.mp h) ops hops)) op hop).not_mem hr

/-- Walks a literal list of operations once, closing each operation's `WritesOne` by `rfl` (what it writes, what it
    allocates) and `decide` (the written reference's class). -/
macro "writes_one_each" : tactic =>
  `(tactic| repeat (first
      | exact ⟨rfl, _, by decide, rfl⟩
      | refine And.intro ⟨rfl, _, by decide, rfl⟩ ?_
      | exact True.intro))

end Cert.LibTailOps
-- ==== Proof.KernelAround.lean ====
import proofs.«177825_j66228395705230_1_alg».proof.Proof.Gen.Kernel.Launch
import proofs.«177825_j66228395705230_1_alg».proof.Proof.Gen.Kernel.Skeleton
import proofs.«177825_j66228395705230_1_alg».proof.Proof.Gen.Kernel.Points
import proofs.«177825_j66228395705230_1_alg».proof.Proof.LibTailOps
import Idealize.ShloMosaic.Lib.Pipeline.FrameBody
import Idealize.ShloMosaic.Lib.Pipeline.FrameSuffix
import Idealize.ShloMosaic.Lib.Ring
import Idealize.ShloMosaic.Lib.Tactic

/-!
# The run of the program around its one pallas_call

The program is: four host lines (the two weight matrices narrowed to bf16, the two biases reshaped to one row), the
pallas_call of the two-layer perceptron over fifty blocks of 2000 rows, and then 270 host lines (the degree
normalisation and ten propagation steps) that read the perceptron's result and write only buffers of their own.

The pallas_call's body reads five input blocks whole — the 2000 rows of `x` at the point, and the four resident
operands — and stores one block whole: 2000 rows of the result. So after the body the output's staging buffer holds
the body's one payload of the five input blocks, every input buffer what it held, and the launch theorem gives the run:
it terminates, faults nowhere, the result array is assembled from the fifty blocks, every other buffer is what the
later host lines make of it, and the six argument arrays, which no line writes, end as they began.
-/

set_option maxRecDepth 16384

noncomputable section

namespace Cert.Kernel.Around

open Cert.Kernel Cert.Kernel.Gen Cert.LibTailOps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before and after the pallas_call -/

/-- The buffers' contents when the pallas_call is entered: after the four host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines after the pallas_call: the stretch up to the `where`, the three lines of the `where`, the rest. -/
abbrev tailOps : List (List (HloOp τ sig (Elt F))) := [hostOps1, hostOps1_1, hostOps1_2]

/-- The class of references the later lines write: those declared after the pallas_call's result (the six arguments,
    the four prepared operands and the result are the first eleven). -/
abbrev Later : Ref sig .tc → Prop := fun y => 11 ≤ y.idx.val

theorem hostOps0_fresh : (hostOps0 : List (HloOp τ sig (Elt F))).Forall fun op => op.fresh = ∅ := by
  simp only [List.Forall]; repeat' constructor

theorem hostOps1_writes : (hostOps1 : List (HloOp τ sig (Elt F))).Forall (WritesOne Later) := by
  writes_one_each
theorem hostOps1_1_writes : (hostOps1_1 : List (HloOp τ sig (Elt F))).Forall (WritesOne Later) := by
  writes_one_each
theorem hostOps1_2_writes : (hostOps1_2 : List (HloOp τ sig (Elt F))).Forall (WritesOne Later) := by
  writes_one_each

/-- Every later line allocates nothing and writes one later reference. -/
theorem tail_writes : (tailOps : List (List (HloOp τ sig (Elt F)))).Forall fun ops => ops.Forall (WritesOne Later) :=
  ⟨hostOps1_writes, hostOps1_1_writes, hostOps1_2_writes⟩

set_option maxRecDepth 200000 in
set_option maxHeartbeats 16000000 in
/-- The program is the earlier lines, the pallas_call, the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] tailOps (by simp only [List.Forall]; exact hostOps0_sub)
    (by simp only [List.Forall]; exact hostOps0_fresh) main_chain

/-- The later lines touch only unscoped TensorCore buffers. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- The pallas_call's six arrays are among the first eleven references. -/
theorem arr_early : ∀ w : Fin 6, ¬ Later (Pipeline.arrRef spec0 w) := by decide

/-- So no later line writes one of them. -/
theorem sfx_keeps : ∀ ops ∈ (tailOps : List (List (HloOp τ sig (Elt F)))), ∀ op ∈ ops,
    ∀ w, Proc.devRef .tc (Pipeline.arrRef spec0 w) ∉ op.writes :=
  fun ops hops op hop w => keeps_of tailOps tail_writes (arr_early w) ops hops op hop

/-! ## The arguments are written by no line -/

section Args
variable (r : Ref sig .tc)

/-- No line before the pallas_call writes an argument: each writes its own result, a reference from the seventh on. -/
theorem V_of_arg (c : Dev nD) (hr : r.idx.val < 6) (hs : r.space = .hbm) :
    V m c r = m ((c : Thread nD τ).loc r) := by
  have h : (hostOps0 : List (HloOp τ sig (Elt F))).Forall (WritesOne fun y : Ref sig .tc => 6 ≤ y.idx.val) := by
    writes_one_each
  show StableHlo.after (List.flatten [hostOps0]) (fun b => m (c, b)) (Proc.devRef .tc r) = _
  rw [List.flatten_cons, List.flatten_nil, List.append_nil]
  exact after_keeps _ _ h (by omega)

end Args

theorem V_main_arg0 (c : Dev nD) : V m c main_arg0 = m ((c : Thread nD τ).loc main_arg0) := V_of_arg m main_arg0 c (by decide) rfl
theorem V_main_arg1 (c : Dev nD) : V m c main_arg1 = m ((c : Thread nD τ).loc main_arg1) := V_of_arg m main_arg1 c (by decide) rfl
theorem V_main_arg2 (c : Dev nD) : V m c main_arg2 = m ((c : Thread nD τ).loc main_arg2) := V_of_arg m main_arg2 c (by decide) rfl
theorem V_main_arg3 (c : Dev nD) : V m c main_arg3 = m ((c : Thread nD τ).loc main_arg3) := V_of_arg m main_arg3 c (by decide) rfl
theorem V_main_arg4 (c : Dev nD) : V m c main_arg4 = m ((c : Thread nD τ).loc main_arg4) := V_of_arg m main_arg4 c (by decide) rfl
theorem V_main_arg5 (c : Dev nD) : V m c main_arg5 = m ((c : Thread nD τ).loc main_arg5) := V_of_arg m main_arg5 c (by decide) rfl

/-- A reference among the first eleven that is no array of the pallas_call ends, after the later lines, as the
    pallas_call found it. -/
theorem W_of_early (dats : (p : Fin _) → (c : Dev nD) → Dat τ (Elt F) Unit ℕ (UR sig nD τ) ℕ (cfgs p) c) (c : Dev nD)
    (r : Ref sig .tc) (hr : ¬ Later r) (hne : ∀ w, Pipeline.arrRef spec0 w ≠ r) :
    Pipeline.afterTail₀ cfgs dats 0 (V0 m) tailOps c r = V m c r := by
  unfold Pipeline.afterTail₀
  rw [after_keeps _ _ (forall_flatten _ tail_writes) hr, Pipeline.withArrays_of_ne _ c (V0 m c) _ r hne]

/-! ## The windows' blocks -/

/-- Window `w`'s block at point `t`, read off its array as the pallas_call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a window that is
    not fetched at a point has not moved since it was). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run to the launch theorem's post: `x` is the first window's array, which the pallas_call only reads; the
    other five arguments are staged by no window and written by no line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans ((W_of_early m dats c main_arg1 (by decide) (by decide)).trans (V_main_arg1 m c))),
      (((h c).2 main_arg2 (Pipeline.mem_restRefs_of main_arg2 (by decide) (by decide))).trans ((W_of_early m dats c main_arg2 (by decide) (by decide)).trans (V_main_arg2 m c))),
      (((h c).2 main_arg3 (Pipeline.mem_restRefs_of main_arg3 (by decide) (by decide))).trans ((W_of_early m dats c main_arg3 (by decide) (by decide)).trans (V_main_arg3 m c))),
      (((h c).2 main_arg4 (Pipeline.mem_restRefs_of main_arg4 (by decide) (by decide))).trans ((W_of_early m dats c main_arg4 (by decide) (by decide)).trans (V_main_arg4 m c))),
      (((h c).2 main_arg5 (Pipeline.mem_restRefs_of main_arg5 (by decide) (by decide))).trans ((W_of_early m dats c main_arg5 (by decide) (by decide)).trans (V_main_arg5 m c)))⟩) h

end Cert.Kernel.Around

end
-- ==== Proof.KernelRun.lean ====
import proofs.«177825_j66228395705230_1_alg».proof.Proof.KernelAround

/-!
# The pallas_call's body, and the run

The body of the two-layer perceptron loads five whole blocks, computes one payload from them and stores it over the
whole output block (it also loads the output block first, a value it never uses). So whatever the output's staging
buffer held, after the body it holds that payload; the five input buffers are as they were.
-/

set_option maxRecDepth 16384

noncomputable section

namespace Cert.Kernel.Around

open Cert.Kernel Cert.Kernel.Gen Cert.LibTailOps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each the whole of its buffer -/

abbrev rX : Rect S2000x512 := Rect.unit (s := S2000x512) ![0, 0] S2000x512.size inb_S2000x512_S2000x512_0_0
abbrev rW1 : Rect S512x256 := Rect.unit (s := S512x256) ![0, 0] S512x256.size inb_S512x256_S512x256_0_0
abbrev rB1 : Rect S1x256 := Rect.unit (s := S1x256) ![0, 0] S1x256.size inb_S1x256_S1x256_0_0
abbrev rW2 : Rect S256x40 := Rect.unit (s := S256x40) ![0, 0] S256x40.size inb_S256x40_S256x40_0_0
abbrev rB2 : Rect S1x40 := Rect.unit (s := S1x40) ![0, 0] S1x40.size inb_S1x40_S1x40_0_0
abbrev rO : Rect S2000x40 := Rect.unit (s := S2000x40) ![0, 0] S2000x40.size inb_S2000x40_S2000x40_0_0

/-- The output's staging buffer after the body, from the five input blocks: its one store. -/
def out0_5 (x0 : Vec F S2000x512 .f32) (x1 : Vec F S512x256 .bf16) (x2 : Vec F S1x256 .f32) (x3 : Vec F S256x40 .bf16) (x4 : Vec F S1x40 .f32) :
    Vec F S2000x40 .f32 :=
  View.canon [⟨rO, k0_pay1 (View.ld x0 rX) (View.ld x1 rW1) (View.ld x2 rB1) (View.ld x3 rW2) (View.ld x4 rB2)⟩]

/-- The store covers the buffer. -/
theorem cover0_5 (p0 : Vec F S2000x40 .f32) (y : S2000x40.Idx) :
    ∃ pc ∈ ([⟨rO, p0⟩] : List (View.Piece (Elt F) S2000x40 .f32)), y ∈ pc.1.set :=
  View.cover_of_tiled [⟨rO, p0⟩] S2000x40.size (by rfl) y

/-! ## The body's triple -/

set_option maxHeartbeats 4000000 in
/-- On whole staging buffers, the inputs' at contents `x0 … x4` and the output's at anything, the body runs to the
    continuation with the inputs' as they were and the output's at `out0_5` of them. -/
theorem sound_kernel (c : Dev nD) (E : Set ℕ) (i : grid0.Coords)
    (arg1 : Memref sig .tc .vmem S2000x512 .f32) (harg1 : arg1.IsWhole) (arg2 : Memref sig .tc .vmem S512x256 .bf16) (harg2 : arg2.IsWhole)
    (arg3 : Memref sig .tc .vmem S1x256 .f32) (harg3 : arg3.IsWhole) (arg4 : Memref sig .tc .vmem S256x40 .bf16) (harg4 : arg4.IsWhole)
    (arg5 : Memref sig .tc .vmem S1x40 .f32) (harg5 : arg5.IsWhole) (arg6 : Memref sig .tc .vmem S2000x40 .f32) (harg6 : arg6.IsWhole)
    (x0 : Vec F S2000x512 .f32) (x1 : Vec F S512x256 .bf16) (x2 : Vec F S1x256 .f32) (x3 : Vec F S256x40 .bf16) (x4 : Vec F S1x40 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The proof data of the pipeline -/

/-- The arrays as the pallas_call finds them; after the body at point `t` each input's buffer at its block and the
    output's at `out0_5` of the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option maxRecDepth 200000 in
set_option maxHeartbeats 16000000 in
set_option backward.isDefEq.respectTransparency.types false in
/-- Every weakly fair execution of the program terminates; the pallas_call's arrays end at what the fifty blocks
    assemble to, every other unscoped buffer at what the later host lines make of it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := fresh_of tailOps tail_writes) (hkeep := sfx_keeps)
    (hmain := hmain m Variants.none) (hA := A_eq m) (hΦ := fun _ _ => rfl)

/-- The frame: the program runs and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Around

end
-- ==== Proof.KernelIdealAround.lean ====
import proofs.«177825_j66228395705230_1_alg».proof.Proof.Gen.KernelIdeal.Launch
import proofs.«177825_j66228395705230_1_alg».proof.Proof.Gen.KernelIdeal.Skeleton
import proofs.«177825_j66228395705230_1_alg».proof.Proof.Gen.KernelIdeal.Points
import proofs.«177825_j66228395705230_1_alg».proof.Proof.LibTailOps
import Idealize.ShloMosaic.Lib.Pipeline.FrameBody
import Idealize.ShloMosaic.Lib.Pipeline.FrameSuffix
import Idealize.ShloMosaic.Lib.Ring
import Idealize.ShloMosaic.Lib.Tactic

/-!
# The run of the program around its one pallas_call

The program is: four host lines (the two weight matrices narrowed to bf16, the two biases reshaped to one row), the
pallas_call of the two-layer perceptron over fifty blocks of 2000 rows, and then 270 host lines (the degree
normalisation and ten propagation steps) that read the perceptron's result and write only buffers of their own.

The pallas_call's body reads five input blocks whole — the 2000 rows of `x` at the point, and the four resident
operands — and stores one block whole: 2000 rows of the result. So after the body the output's staging buffer holds
the body's one payload of the five input blocks, every input buffer what it held, and the launch theorem gives the run:
it terminates, faults nowhere, the result array is assembled from the fifty blocks, every other buffer is what the
later host lines make of it, and the six argument arrays, which no line writes, end as they began.
-/

set_option maxRecDepth 16384

noncomputable section

namespace Cert.KernelIdeal.Around

open Cert.KernelIdeal Cert.KernelIdeal.Gen Cert.LibTailOps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before and after the pallas_call -/

/-- The buffers' contents when the pallas_call is entered: after the four host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines after the pallas_call: the stretch up to the `where`, the three lines of the `where`, the rest. -/
abbrev tailOps : List (List (HloOp τ sig (Elt F))) := [hostOps1, hostOps1_1, hostOps1_2]

/-- The class of references the later lines write: those declared after the pallas_call's result (the six arguments,
    the four prepared operands and the result are the first eleven). -/
abbrev Later : Ref sig .tc → Prop := fun y => 11 ≤ y.idx.val

theorem hostOps0_fresh : (hostOps0 : List (HloOp τ sig (Elt F))).Forall fun op => op.fresh = ∅ := by
  simp only [List.Forall]; repeat' constructor

theorem hostOps1_writes : (hostOps1 : List (HloOp τ sig (Elt F))).Forall (WritesOne Later) := by
  writes_one_each
theorem hostOps1_1_writes : (hostOps1_1 : List (HloOp τ sig (Elt F))).Forall (WritesOne Later) := by
  writes_one_each
theorem hostOps1_2_writes : (hostOps1_2 : List (HloOp τ sig (Elt F))).Forall (WritesOne Later) := by
  writes_one_each

/-- Every later line allocates nothing and writes one later reference. -/
theorem tail_writes : (tailOps : List (List (HloOp τ sig (Elt F)))).Forall fun ops => ops.Forall (WritesOne Later) :=
  ⟨hostOps1_writes, hostOps1_1_writes, hostOps1_2_writes⟩

set_option maxRecDepth 200000 in
set_option maxHeartbeats 16000000 in
/-- The program is the earlier lines, the pallas_call, the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] tailOps (by simp only [List.Forall]; exact hostOps0_sub)
    (by simp only [List.Forall]; exact hostOps0_fresh) main_chain

/-- The later lines touch only unscoped TensorCore buffers. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- The pallas_call's six arrays are among the first eleven references. -/
theorem arr_early : ∀ w : Fin 6, ¬ Later (Pipeline.arrRef spec0 w) := by decide

/-- So no later line writes one of them. -/
theorem sfx_keeps : ∀ ops ∈ (tailOps : List (List (HloOp τ sig (Elt F)))), ∀ op ∈ ops,
    ∀ w, Proc.devRef .tc (Pipeline.arrRef spec0 w) ∉ op.writes :=
  fun ops hops op hop w => keeps_of tailOps tail_writes (arr_early w) ops hops op hop

/-! ## The arguments are written by no line -/

section Args
variable (r : Ref sig .tc)

/-- No line before the pallas_call writes an argument: each writes its own result, a reference from the seventh on. -/
theorem V_of_arg (c : Dev nD) (hr : r.idx.val < 6) (hs : r.space = .hbm) :
    V m c r = m ((c : Thread nD τ).loc r) := by
  have h : (hostOps0 : List (HloOp τ sig (Elt F))).Forall (WritesOne fun y : Ref sig .tc => 6 ≤ y.idx.val) := by
    writes_one_each
  show StableHlo.after (List.flatten [hostOps0]) (fun b => m (c, b)) (Proc.devRef .tc r) = _
  rw [List.flatten_cons, List.flatten_nil, List.append_nil]
  exact after_keeps _ _ h (by omega)

end Args

theorem V_main_arg0 (c : Dev nD) : V m c main_arg0 = m ((c : Thread nD τ).loc main_arg0) := V_of_arg m main_arg0 c (by decide) rfl
theorem V_main_arg1 (c : Dev nD) : V m c main_arg1 = m ((c : Thread nD τ).loc main_arg1) := V_of_arg m main_arg1 c (by decide) rfl
theorem V_main_arg2 (c : Dev nD) : V m c main_arg2 = m ((c : Thread nD τ).loc main_arg2) := V_of_arg m main_arg2 c (by decide) rfl
theorem V_main_arg3 (c : Dev nD) : V m c main_arg3 = m ((c : Thread nD τ).loc main_arg3) := V_of_arg m main_arg3 c (by decide) rfl
theorem V_main_arg4 (c : Dev nD) : V m c main_arg4 = m ((c : Thread nD τ).loc main_arg4) := V_of_arg m main_arg4 c (by decide) rfl
theorem V_main_arg5 (c : Dev nD) : V m c main_arg5 = m ((c : Thread nD τ).loc main_arg5) := V_of_arg m main_arg5 c (by decide) rfl

/-- A reference among the first eleven that is no array of the pallas_call ends, after the later lines, as the
    pallas_call found it. -/
theorem W_of_early (dats : (p : Fin _) → (c : Dev nD) → Dat τ (Elt F) Unit ℕ (UR sig nD τ) ℕ (cfgs p) c) (c : Dev nD)
    (r : Ref sig .tc) (hr : ¬ Later r) (hne : ∀ w, Pipeline.arrRef spec0 w ≠ r) :
    Pipeline.afterTail₀ cfgs dats 0 (V0 m) tailOps c r = V m c r := by
  unfold Pipeline.afterTail₀
  rw [after_keeps _ _ (forall_flatten _ tail_writes) hr, Pipeline.withArrays_of_ne _ c (V0 m c) _ r hne]

/-! ## The windows' blocks -/

/-- Window `w`'s block at point `t`, read off its array as the pallas_call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a window that is
    not fetched at a point has not moved since it was). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run to the launch theorem's post: `x` is the first window's array, which the pallas_call only reads; the
    other five arguments are staged by no window and written by no line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans ((W_of_early m dats c main_arg1 (by decide) (by decide)).trans (V_main_arg1 m c))),
      (((h c).2 main_arg2 (Pipeline.mem_restRefs_of main_arg2 (by decide) (by decide))).trans ((W_of_early m dats c main_arg2 (by decide) (by decide)).trans (V_main_arg2 m c))),
      (((h c).2 main_arg3 (Pipeline.mem_restRefs_of main_arg3 (by decide) (by decide))).trans ((W_of_early m dats c main_arg3 (by decide) (by decide)).trans (V_main_arg3 m c))),
      (((h c).2 main_arg4 (Pipeline.mem_restRefs_of main_arg4 (by decide) (by decide))).trans ((W_of_early m dats c main_arg4 (by decide) (by decide)).trans (V_main_arg4 m c))),
      (((h c).2 main_arg5 (Pipeline.mem_restRefs_of main_arg5 (by decide) (by decide))).trans ((W_of_early m dats c main_arg5 (by decide) (by decide)).trans (V_main_arg5 m c)))⟩) h

end Cert.KernelIdeal.Around

end
-- ==== Proof.KernelIdealRun.lean ====
import proofs.«177825_j66228395705230_1_alg».proof.Proof.KernelIdealAround

/-!
# The pallas_call's body, and the run

The body of the two-layer perceptron loads five whole blocks, computes one payload from them and stores it over the
whole output block (it also loads the output block first, a value it never uses). So whatever the output's staging
buffer held, after the body it holds that payload; the five input buffers are as they were.
-/

set_option maxRecDepth 16384

noncomputable section

namespace Cert.KernelIdeal.Around

open Cert.KernelIdeal Cert.KernelIdeal.Gen Cert.LibTailOps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each the whole of its buffer -/

abbrev rX : Rect S2000x512 := Rect.unit (s := S2000x512) ![0, 0] S2000x512.size inb_S2000x512_S2000x512_0_0
abbrev rW1 : Rect S512x256 := Rect.unit (s := S512x256) ![0, 0] S512x256.size inb_S512x256_S512x256_0_0
abbrev rB1 : Rect S1x256 := Rect.unit (s := S1x256) ![0, 0] S1x256.size inb_S1x256_S1x256_0_0
abbrev rW2 : Rect S256x40 := Rect.unit (s := S256x40) ![0, 0] S256x40.size inb_S256x40_S256x40_0_0
abbrev rB2 : Rect S1x40 := Rect.unit (s := S1x40) ![0, 0] S1x40.size inb_S1x40_S1x40_0_0
abbrev rO : Rect S2000x40 := Rect.unit (s := S2000x40) ![0, 0] S2000x40.size inb_S2000x40_S2000x40_0_0

/-- The output's staging buffer after the body, from the five input blocks: its one store. -/
def out0_5 (x0 : Vec F S2000x512 .f32) (x1 : Vec F S512x256 .bf16) (x2 : Vec F S1x256 .f32) (x3 : Vec F S256x40 .bf16) (x4 : Vec F S1x40 .f32) :
    Vec F S2000x40 .f32 :=
  View.canon [⟨rO, k0_pay1 (View.ld x0 rX) (View.ld x1 rW1) (View.ld x2 rB1) (View.ld x3 rW2) (View.ld x4 rB2)⟩]

/-- The store covers the buffer. -/
theorem cover0_5 (p0 : Vec F S2000x40 .f32) (y : S2000x40.Idx) :
    ∃ pc ∈ ([⟨rO, p0⟩] : List (View.Piece (Elt F) S2000x40 .f32)), y ∈ pc.1.set :=
  View.cover_of_tiled [⟨rO, p0⟩] S2000x40.size (by rfl) y

/-! ## The body's triple -/

set_option maxHeartbeats 4000000 in
/-- On whole staging buffers, the inputs' at contents `x0 … x4` and the output's at anything, the body runs to the
    continuation with the inputs' as they were and the output's at `out0_5` of them. -/
theorem sound_kernel (c : Dev nD) (E : Set ℕ) (i : grid0.Coords)
    (arg1 : Memref sig .tc .vmem S2000x512 .f32) (harg1 : arg1.IsWhole) (arg2 : Memref sig .tc .vmem S512x256 .bf16) (harg2 : arg2.IsWhole)
    (arg3 : Memref sig .tc .vmem S1x256 .f32) (harg3 : arg3.IsWhole) (arg4 : Memref sig .tc .vmem S256x40 .bf16) (harg4 : arg4.IsWhole)
    (arg5 : Memref sig .tc .vmem S1x40 .f32) (harg5 : arg5.IsWhole) (arg6 : Memref sig .tc .vmem S2000x40 .f32) (harg6 : arg6.IsWhole)
    (x0 : Vec F S2000x512 .f32) (x1 : Vec F S512x256 .bf16) (x2 : Vec F S1x256 .f32) (x3 : Vec F S256x40 .bf16) (x4 : Vec F S1x40 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The proof data of the pipeline -/

/-- The arrays as the pallas_call finds them; after the body at point `t` each input's buffer at its block and the
    output's at `out0_5` of the input blocks; nothing else held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option maxRecDepth 200000 in
set_option maxHeartbeats 16000000 in
set_option backward.isDefEq.respectTransparency.types false in
/-- Every weakly fair execution of the program terminates; the pallas_call's arrays end at what the fifty blocks
    assemble to, every other unscoped buffer at what the later host lines make of it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := fresh_of tailOps tail_writes) (hkeep := sfx_keeps)
    (hmain := hmain m Variants.none) (hA := A_eq m) (hΦ := fun _ _ => rfl)

/-- The frame: the program runs and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Around

end
-- ==== Proof.Propagate.lean ====
import proofs.«177825_j66228395705230_1_alg».proof.KernelIdeal

/-!
# The propagation that follows the perceptron

Both programs finish with the same host computation on the perceptron's result `h` ([100000, 40]) and the edge list
`e` ([2, 1600000] integers): with a self-loop appended for every node, `src` and `dst` are the edges' two ends
([1700000] each); `deg` counts, by a scatter-add of ones, the edges arriving at each node; `dinv` is
`1 / sqrt deg` where `deg > 0` and `0` elsewhere; an edge's weight is `dinv[src] * dinv[dst]` (the gathers' indices
wrapped once if negative); and one step takes `z` to

    0.9 * segment_sum_dst (weight * z[src]) + 0.1 * h,

the two factors being the f32 values nearest 0.9 and 0.1. Ten steps from `z = h` give the result. The definitions below
spell this with the very operations the programs apply, so that either program's composed term IS `propagate e h`;
nothing about the operations is used to compare the programs beyond that both apply the same ones to `e` and `h`.
-/

noncomputable section

namespace Cert.Propagate

open Cert.KernelIdeal Idealize.ShloMosaic

variable {F : FTy → Type} [FloatOps F] [Cert.KernelIdeal.Facts]

open Cert.KernelIdeal.Facts₀ Cert.KernelIdeal.Facts

/-- The node numbers `0 … 99999`: the self-loops' two ends. -/
def loops : (⟨S100000, .i32⟩ : BufTy).Contents (Elt F) := iotaInDim S100000 32 0

/-- The edges' first ends, the self-loops appended. -/
def src (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edges' second ends, the self-loops appended. -/
def dst (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- Node numbers as a gather's start indices: a negative one wrapped once by the number of nodes, then a column. -/
def wrapped (ids : (⟨S1700000, .i32⟩ : BufTy).Contents (Elt F)) : (⟨S1700000x1, .i32⟩ : BufTy).Contents (Elt F) :=
  broadcastInDim S1700000x1 ![0] bcast_S1700000_S1700000x1_0
    (select (cmpi .slt ids (broadcastInDim S1700000 ![] bcast_S_S1700000 (constantI S_ 32 0#32)))
      (addi ids (broadcastInDim S1700000 ![] bcast_S_S1700000 (constantI S_ 32 100000#32))) ids)

/-- The number of edges arriving at each node. -/
def deg (e : (⟨S2x1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (dst e))
    (broadcastInDim S1700000 ![] bcast_S_S1700000 (constant S_ .f32 0x3F800000#32))

/-- `1 / sqrt deg` where the degree is positive, zero elsewhere. -/
def dinv (e : (⟨S2x1600000, .i32⟩ : BufTy).Contents (Elt F)) : (⟨S100000, .f32⟩ : BufTy).Contents (Elt F) :=
  select (cmpf .ogt (deg e) (broadcastInDim S100000 ![] bcast_S_S100000 (constant S_ .f32 0x00000000#32)))
    (Host.rsqrt (deg e))
    (broadcastInDim S100000 ![] bcast_S_S100000 (id (constant S_ .f32 0x00000000#32)))

/-- An edge's weight: the product of its two ends' `dinv`. -/
def weight (e : (⟨S2x1600000, .i32⟩ : BufTy).Contents (Elt F)) : (⟨S1700000, .f32⟩ : BufTy).Contents (Elt F) :=
  mulf (Host.gather gather_S100000_S1700000x1_S1700000_n_0_n_n_0_1_1 (dinv e) (wrapped (src e)))
    (Host.gather gather_S100000_S1700000x1_S1700000_n_0_n_n_0_1_1 (dinv e) (wrapped (dst e)))

/-- One propagation step. -/
def step (e : (⟨S2x1600000, .i32⟩ : BufTy).Contents (Elt F)) (h z : (⟨S100000x40, .f32⟩ : BufTy).Contents (Elt F)) :
    (⟨S100000x40, .f32⟩ : BufTy).Contents (Elt F) :=
  addf
    (mulf (broadcastInDim S100000x40 ![] bcast_S_S100000x40 (constant S_ .f32 0x3F666666#32))
      (Host.scatterAdd scatter_S100000x40_S1700000x1_S1700000x40_1_0_0_1
        (broadcastInDim S100000x40 ![] bcast_S_S100000x40 (constant S_ .f32 0x00000000#32))
        (broadcastInDim S1700000x1 ![0] bcast_S1700000_S1700000x1_0 (dst e))
        (mulf (broadcastInDim S1700000x40 ![0, 1] bcast_S1700000x1_S1700000x40_0_1
            (broadcastInDim S1700000x1 ![0] bcast_S1700000_S1700000x1_0 (weight e)))
          (Host.gather gather_S100000x40_S1700000x1_S1700000x40_1_0_n_n_0_1_140 z (wrapped (src e))))))
    (mulf (broadcastInDim S100000x40 ![] bcast_S_S100000x40 (constant S_ .f32 0x3DCCCCCD#32)) h)

/-- Ten steps from `z = h`. -/
def propagate (e : (⟨S2x1600000, .i32⟩ : BufTy).Contents (Elt F)) (h : (⟨S100000x40, .f32⟩ : BufTy).Contents (Elt F)) :
    (⟨S100000x40, .f32⟩ : BufTy).Contents (Elt F) :=
  step e h (step e h (step e h (step e h (step e h (step e h (step e h (step e h (step e h (step e h h)))))))))

end Cert.Propagate

end
-- ==== Proof.LibAfter.lean ====
import Idealize.ShloMosaic.Lib.StableHlo.Run

/-!
# Host operations run one stretch after another

The buffers' contents after two stretches of host operations are the second stretch's contents computed from the first's.
-/

namespace Cert.LibAfter

open Idealize.ShloMosaic Idealize.ShloMosaic.StableHlo

variable {τ : Topo} {sig : RefSig} {Val : EltTy → Type}

/-- `after` of a concatenation is `after` of the second list from `after` of the first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.LibAfter
-- ==== Proof.KernelIdealTail.lean ====
import proofs.«177825_j66228395705230_1_alg».proof.Proof.Gen.KernelIdeal.Launch
import proofs.«177825_j66228395705230_1_alg».proof.Proof.Propagate
import proofs.«177825_j66228395705230_1_alg».proof.Proof.LibAfter
import Idealize.ShloMosaic.Lib.StableHlo.Run

/-!
# The host lines after the pallas_call compute the propagation

Read from any contents `W` of the buffers, the 270 host lines that follow the pallas_call leave in the program's
result buffer the propagation of the edge list found in the second argument's buffer and the matrix found in the
pallas_call's result buffer: each line's result is its operation applied to the results of the lines it reads.
-/

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

set_option maxRecDepth 65536 in
set_option maxHeartbeats 400000000 in
theorem after_tail (W : Valuation τ sig (Elt F)) :
    after (List.flatten [hostOps1, hostOps1_1, hostOps1_2]) W (Proc.devRef .tc main_v214)
      = Cert.Propagate.propagate (F := F) (W (Proc.devRef .tc main_arg1)) (W (Proc.devRef .tc main_v4)) := by
  show after (hostOps1 ++ (hostOps1_1 ++ (hostOps1_2 ++ []))) W (Proc.devRef .tc main_v214) = _
  rw [List.append_nil, Cert.LibAfter.after_append, Cert.LibAfter.after_append]
  after_results_simp <;> rfl

end Cert.KernelIdeal.Tail

end
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.LibLayers.lean ====
/-
  The layers of a three-layer graph network's node update, read as functions of rows at the ideal values.

  After the neighbours' rows have been summed into each node, a layer is a dense map of the node's row,
  sum_k x(r, k) * w(k, n) + b(n), followed either by relu, max(., 0), or, in the last layer, by the log-softmax of
  the row:  y(r, n) - m(r) - log (sum_k exp (y(r, k) - m(r)))  with m(r) the largest entry of row r.  Every entry of
  a layer's result depends on one row of its input only; that is what lets a kernel that walks over blocks of rows be
  compared with a reference that treats all rows at once.

  Each layer is read to its row function in two spellings: the kernel's (operands narrowed to bf16, which is the
  identity at the ideal values; a matrix product into a zero splat; lane reductions that carry their neutral element;
  a vector cast to a column and repeated along the rows) and the host's (dot_general; reductions with an initial
  value; broadcasts in two steps; one more maximum against -inf, which is the identity because -inf is the least
  extended real).  No law of arithmetic beyond 0 + x = x and max (-inf) x = x is used, so nothing here needs the
  inputs to be finite.  All of it is generic in the extents.  (The dense map itself, `dense`, and the two column readings
  come from the two lemma files imported first: a copy of this file needs copies of those beside it.)
-/
import proofs.«177825_j66228395705230_1_alg».proof.Proof.LibDense
import proofs.«177825_j66228395705230_1_alg».proof.Proof.LibLayout
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibLayers

open Idealize.ShloMosaic Idealize.ShloMosaic.ValueIdx Cert.LibDense

/-! ## Pointwise readings -/

theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl
theorem hostExp_apply {s : Shape} {φ : FTy} (x : FVec Ideal s φ) (i : s.Idx) : Host.exp x i = Ideal.exp (x i) := rfl
theorem hostLog_apply {s : Shape} {φ : FTy} (x : FVec Ideal s φ) (i : s.Idx) : Host.log x i = Ideal.log (x i) := rfl

/-! ## relu -/

/-- relu on every entry: the larger of the entry and the f32 zero. -/
def relu {s : Shape} (y : s.Idx → EReal) : s.Idx → EReal := fun j => max (y j) (Ideal.ofBits .f32 0x00000000#32)

/-- The kernel's spelling: the maximum with a splatted zero. -/
theorem relu_kernel {s : Shape} (y : FVec Ideal s .f32) :
    maximumf y (broadcast s (Scalar.ofBits (F := Ideal) .f32 0x00000000#32)) = relu y := rfl

/-- The host's spelling: the maximum with a broadcast zero constant. -/
theorem relu_host {s : Shape} (y : FVec Ideal s .f32) (hS : (⟨0, ![]⟩ : Shape).BroadcastsInDim s (![] : Fin 0 → Fin s.rank)) :
    maximumf y (broadcastInDim s ![] hS (constant (F := Ideal) ⟨0, ![]⟩ .f32 0x00000000#32)) = relu y := by
  funext j
  show max (y j) (Ideal.ofBits .f32 0x00000000#32) = relu y j
  rfl

/-- relu of an entry depends on that entry only. -/
theorem relu_congr {s s' : Shape} (y : s.Idx → EReal) (y' : s'.Idx → EReal) (j : s.Idx) (j' : s'.Idx) (h : y j = y' j') :
    relu y j = relu y' j' := by
  show max (y j) _ = max (y' j') _
  rw [h]

/-! ## The dense layer with its bias given as one row -/

/-- A [1, N] row read as the [N] vector of its entries. -/
def rowVec {N : Nat} (b1 : (⟨2, ![1, N]⟩ : Shape).Idx → EReal) : (⟨1, ![N]⟩ : Shape).Idx → EReal :=
  fun i => b1 (ix2 (0 : Fin 1) (i 0 : Fin N))

/-- A vector cast to one row, read back as a vector, is the vector. -/
theorem rowVec_shapeCast {N : Nat} (b : (⟨1, ![N]⟩ : Shape).Idx → EReal) (h : (⟨1, ![N]⟩ : Shape).ShapeCasts ⟨2, ![1, N]⟩) :
    rowVec (shapeCast ⟨2, ![1, N]⟩ b h) = b := by
  funext i
  obtain ⟨q, rfl⟩ : ∃ q : Fin N, i = ix1 q := ⟨i 0, eq_ix1 i⟩
  exact shapeCast_apply b h (ix2 (0 : Fin 1) q) (ix1 q) (by
    rw [Shape.rowMajor_val_two, Shape.rowMajor_val_one]; show q.val = 0 * N + q.val; omega)

/-- The kernel's dense layer when the bias arrives as one row: both operands pass through an identity cast and a
    narrowing to bf16, the product accumulates into a zero splat, the row is cast to itself and repeated down the rows. -/
theorem dense_kernel_row {A K N : Nat} (x : FVec Ideal ⟨2, ![A, K]⟩ .f32) (w : FVec Ideal ⟨2, ![K, N]⟩ .f32)
    (b1 : FVec Ideal ⟨2, ![1, N]⟩ .f32) (hlt : FTy.bits .bf16 < FTy.bits .f32)
    (hx : (⟨2, ![A, K]⟩ : Shape).ShapeCasts ⟨2, ![A, K]⟩)
    (h1 : (⟨2, ![1, N]⟩ : Shape).ShapeCasts ⟨2, ![1, N]⟩) (hb : (⟨2, ![1, N]⟩ : Shape).Broadcasts ⟨2, ![A, N]⟩) :
    addf (matmul (DotDims.plain A K N) none (truncf .bf16 (shapeCast ⟨2, ![A, K]⟩ x hx) hlt) (truncf .bf16 w hlt)
        (constant ⟨2, ![A, N]⟩ .f32 0x00000000#32))
      (broadcastTo ⟨2, ![A, N]⟩ (shapeCast ⟨2, ![1, N]⟩ b1 h1) hb) = dense A K N x w (rowVec b1) := by
  rw [shapeCast_self x hx, shapeCast_self b1 h1]
  funext j
  rw [addf_apply]
  have eb : broadcastTo ⟨2, ![A, N]⟩ b1 hb j = b1 (ix2 (0 : Fin 1) (j 1 : Fin N)) :=
    broadcastTo_apply b1 hb j (ix2 (0 : Fin 1) (j 1 : Fin N)) (by
      intro a
      match a with
      | ⟨0, _⟩ => rfl
      | ⟨1, _⟩ =>
        show (j 1).val = if N = 1 then 0 else (j 1).val
        split
        · have := (j 1).isLt; have e : (j 1).val < N := this; omega
        · rfl)
  rw [eb]
  refine congrArg (· + b1 (ix2 (0 : Fin 1) (j 1 : Fin N))) ?_
  refine (Ideal.matmul_constant_zero_apply (DotDims.plain A K N) none (truncf .bf16 x hlt) (truncf .bf16 w hlt) j).trans ?_
  exact plain_sum A K N x w j

/-! ## The host's column layouts -/

/-- A column broadcast along the rows reads the column's entry of the row. -/
theorem col2_host {A N : Nat} {α : Type} (hbc : (⟨2, ![A, 1]⟩ : Shape).BroadcastsInDim ⟨2, ![A, N]⟩ ![0, 1])
    (u : (⟨2, ![A, 1]⟩ : Shape).Idx → α) (p : Fin A) (q : Fin N) :
    broadcastInDim ⟨2, ![A, N]⟩ ![0, 1] hbc u (ix2 p q) = u (ix2 p (0 : Fin 1)) := by
  refine broadcastInDim_apply ![0, 1] hbc u (ix2 p q) (ix2 p (0 : Fin 1)) ?_
  intro a
  match a with
  | ⟨0, _⟩ =>
    show p.val = if A = 1 then 0 else p.val
    split
    · have := p.isLt; omega
    · rfl
  | ⟨1, _⟩ => rfl

/-- A vector broadcast to a column along axis 0 reads the vector at the row. -/
theorem col1_host {A : Nat} {α : Type} (hd : (⟨1, ![A]⟩ : Shape).BroadcastsInDim ⟨2, ![A, 1]⟩ ![0])
    (v : (⟨1, ![A]⟩ : Shape).Idx → α) (p : Fin A) (z : Fin 1) :
    broadcastInDim ⟨2, ![A, 1]⟩ ![0] hd v (ix2 p z) = v (ix1 p) := by
  refine broadcastInDim_apply ![0] hd v (ix2 p z) (ix1 p) ?_
  intro a
  match a with
  | ⟨0, _⟩ =>
    show p.val = if A = 1 then 0 else p.val
    split
    · have := p.isLt; omega
    · rfl

/-- The two steps together: a vector laid out as a column and repeated along the rows reads the vector at the row. -/
theorem col_host {A N : Nat} {α : Type} (hd : (⟨1, ![A]⟩ : Shape).BroadcastsInDim ⟨2, ![A, 1]⟩ ![0])
    (hbc : (⟨2, ![A, 1]⟩ : Shape).BroadcastsInDim ⟨2, ![A, N]⟩ ![0, 1]) (v : (⟨1, ![A]⟩ : Shape).Idx → α)
    (p : Fin A) (q : Fin N) :
    broadcastInDim ⟨2, ![A, N]⟩ ![0, 1] hbc (broadcastInDim ⟨2, ![A, 1]⟩ ![0] hd v) (ix2 p q) = v (ix1 p) :=
  (col2_host hbc _ p q).trans (col1_host hd v p 0)

/-! ## The log-softmax of every row -/

/-- The largest entry of row p, starting from -inf. -/
def rowMax {A N : Nat} (y : (⟨2, ![A, N]⟩ : Shape).Idx → EReal) (p : Fin A) : EReal :=
  (Finset.univ : Finset (Fin N)).fold max (Ideal.ofBits .f32 0xFF800000#32) fun k => y (ix2 p k)

/-- The log-softmax of each row: the entry less the row's maximum, less the logarithm of the row's sum of the
    exponentials of such differences. -/
def logSoftmax {A N : Nat} (y : (⟨2, ![A, N]⟩ : Shape).Idx → EReal) : (⟨2, ![A, N]⟩ : Shape).Idx → EReal :=
  fun j => (y j - rowMax y (j 0 : Fin A))
    - Ideal.log (∑ k : Fin N, Ideal.exp (y (ix2 (j 0 : Fin A) k) - rowMax y (j 0 : Fin A)))

/-- Two matrices that agree on a row have the same maximum there. -/
theorem rowMax_congr {A A' N : Nat} (y : (⟨2, ![A, N]⟩ : Shape).Idx → EReal) (y' : (⟨2, ![A', N]⟩ : Shape).Idx → EReal)
    (p : Fin A) (r : Fin A') (h : ∀ k : Fin N, y (ix2 p k) = y' (ix2 r k)) : rowMax y p = rowMax y' r := by
  unfold rowMax
  exact congrArg (fun f => (Finset.univ : Finset (Fin N)).fold max (Ideal.ofBits .f32 0xFF800000#32) f) (funext h)

/-- Entry (p, q) of the log-softmax depends on row p only. -/
theorem logSoftmax_row {A A' N : Nat} (y : (⟨2, ![A, N]⟩ : Shape).Idx → EReal) (y' : (⟨2, ![A', N]⟩ : Shape).Idx → EReal)
    (p : Fin A) (r : Fin A') (q : Fin N) (h : ∀ k : Fin N, y (ix2 p k) = y' (ix2 r k)) :
    logSoftmax y (ix2 p q) = logSoftmax y' (ix2 r q) := by
  have hm := rowMax_congr y y' p r h
  show (y (ix2 p q) - rowMax y p) - Ideal.log (∑ k : Fin N, Ideal.exp (y (ix2 p k) - rowMax y p))
    = (y' (ix2 r q) - rowMax y' r) - Ideal.log (∑ k : Fin N, Ideal.exp (y' (ix2 r k) - rowMax y' r))
  rw [hm, h q, Finset.sum_congr rfl fun k _ => by rw [h k]]

/-- The kernel's row maximum, cast to a column and repeated along the rows, reads the row's maximum. -/
theorem rowMax_kernel {A N : Nat} (y : FVec Ideal ⟨2, ![A, N]⟩ .f32)
    (hr : (⟨2, ![A, N]⟩ : Shape).Reduces [1] ⟨1, ![A]⟩) (hφ : FKind.Formats .f32)
    (hm : (0xFF800000#32 : BitVec 32) = FKind.maximumf.neutral .f32 hφ)
    (hc : (⟨1, ![A]⟩ : Shape).ShapeCasts ⟨2, ![A, 1]⟩) (hb : (⟨2, ![A, 1]⟩ : Shape).Broadcasts ⟨2, ![A, N]⟩)
    (p : Fin A) (q : Fin N) :
    broadcastTo ⟨2, ![A, N]⟩ (shapeCast ⟨2, ![A, 1]⟩ (multiReduction .maximumf [1] ⟨1, ![A]⟩ y 0xFF800000#32 hr hφ hm) hc) hb (ix2 p q)
      = rowMax y p := by
  rw [LibLayout.broadcastTo_a1_ab_apply, LibLayout.shapeCast_a_a1_apply]
  refine (Ideal.multiReduction_maximumf_single y _ hr hφ hm (ix1 p)).trans ?_
  show (Finset.univ : Finset (Fin N)).fold max (Ideal.ofBits .f32 0xFF800000#32) (y ∘ hr.lift (ix1 p)) = rowMax y p
  unfold rowMax
  refine congrArg (fun f => (Finset.univ : Finset (Fin N)).fold max (Ideal.ofBits .f32 0xFF800000#32) f) (funext fun k => ?_)
  exact congrArg y (funext fun c => Fin.ext (by
    match c with
    | ⟨0, _⟩ => rfl
    | ⟨1, _⟩ => rfl))

/-- The kernel's log-softmax of a tile of rows is the log-softmax of each of its rows. -/
theorem logSoftmax_kernel {A N : Nat} (y : FVec Ideal ⟨2, ![A, N]⟩ .f32)
    (hr : (⟨2, ![A, N]⟩ : Shape).Reduces [1] ⟨1, ![A]⟩) (hφ : FKind.Formats .f32)
    (hm : (0xFF800000#32 : BitVec 32) = FKind.maximumf.neutral .f32 hφ)
    (ha : (0x00000000#32 : BitVec 32) = FKind.add.neutral .f32 hφ)
    (hc : (⟨1, ![A]⟩ : Shape).ShapeCasts ⟨2, ![A, 1]⟩) (hb : (⟨2, ![A, 1]⟩ : Shape).Broadcasts ⟨2, ![A, N]⟩) :
    subf (subf y (broadcastTo ⟨2, ![A, N]⟩ (shapeCast ⟨2, ![A, 1]⟩ (multiReduction .maximumf [1] ⟨1, ![A]⟩ y 0xFF800000#32 hr hφ hm) hc) hb))
      (broadcastTo ⟨2, ![A, N]⟩ (log (shapeCast ⟨2, ![A, 1]⟩ (multiReduction .add [1] ⟨1, ![A]⟩
        (exp (subf y (broadcastTo ⟨2, ![A, N]⟩ (shapeCast ⟨2, ![A, 1]⟩ (multiReduction .maximumf [1] ⟨1, ![A]⟩ y 0xFF800000#32 hr hφ hm) hc) hb)))
        0x00000000#32 hr hφ ha) hc)) hb)
      = logSoftmax y := by
  have hsh : subf y (broadcastTo ⟨2, ![A, N]⟩ (shapeCast ⟨2, ![A, 1]⟩ (multiReduction .maximumf [1] ⟨1, ![A]⟩ y 0xFF800000#32 hr hφ hm) hc) hb)
      = fun j => y j - rowMax y (j 0 : Fin A) := by
    funext j
    obtain ⟨p, q, rfl⟩ : ∃ (p : Fin A) (q : Fin N), j = ix2 p q := ⟨j 0, j 1, eq_ix2 j⟩
    rw [subf_apply, rowMax_kernel y hr hφ hm hc hb p q]
    rfl
  rw [hsh]
  funext j
  obtain ⟨p, q, rfl⟩ : ∃ (p : Fin A) (q : Fin N), j = ix2 p q := ⟨j 0, j 1, eq_ix2 j⟩
  rw [subf_apply, LibLayout.broadcastTo_a1_ab_apply, log_apply, LibLayout.shapeCast_a_a1_apply]
  show (y (ix2 p q) - rowMax y p) - Ideal.log _ = (y (ix2 p q) - rowMax y p) - Ideal.log _
  refine congrArg (fun s => (y (ix2 p q) - rowMax y p) - Ideal.log s) ?_
  refine (Ideal.multiReduction_add_single _ _ hr hφ ha (ix1 p)).trans ?_
  show ∑ k : Fin N, _ = ∑ k : Fin N, _
  refine Finset.sum_congr rfl fun k _ => ?_
  have el : hr.lift (ix1 p) k = ix2 p k := funext fun c => Fin.ext (by
    match c with
    | ⟨0, _⟩ => rfl
    | ⟨1, _⟩ => rfl)
  rw [el, exp_apply]
  rfl

/-- The host's row maximum (a reduce from -inf, then one more maximum against a splat of -inf), laid out as a column
    and repeated along the rows, reads the row's maximum. -/
theorem rowMax_host {A N : Nat} (y : FVec Ideal ⟨2, ![A, N]⟩ .f32)
    (h' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hS : (⟨0, ![]⟩ : Shape).BroadcastsInDim ⟨1, ![A]⟩ (![] : Fin 0 → Fin 1))
    (hd : (⟨1, ![A]⟩ : Shape).BroadcastsInDim ⟨2, ![A, 1]⟩ ![0])
    (hbc : (⟨2, ![A, 1]⟩ : Shape).BroadcastsInDim ⟨2, ![A, N]⟩ ![0, 1]) (p : Fin A) (q : Fin N) :
    broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu))) (ix2 p q)
      = rowMax y p := by
  rw [col_host hd hbc _ p q, maximumf_apply]
  show max (Ideal.ofBits .f32 0xFF800000#32) _ = _
  rw [Host.reduce_eq_fold_single FloatOps.maximumf y _ h' hr hu (ix1 p)]
  have hbot : Ideal.ofBits .f32 0xFF800000#32 = (⊥ : EReal) := by simp [Ideal.ofBits, Ideal.ieee]
  show max (Ideal.ofBits .f32 0xFF800000#32)
      ((Finset.univ : Finset (Fin N)).fold max (Ideal.ofBits .f32 0xFF800000#32) (y ∘ hr.lift (ix1 p))) = rowMax y p
  rw [hbot, max_eq_right bot_le, ← hbot]
  unfold rowMax
  refine congrArg (fun f => (Finset.univ : Finset (Fin N)).fold max (Ideal.ofBits .f32 0xFF800000#32) f) (funext fun k => ?_)
  exact congrArg y (funext fun c => Fin.ext (by
    match c with
    | ⟨0, _⟩ => rfl
    | ⟨1, _⟩ => rfl))

/-- The host's log-softmax of all rows is the log-softmax of each row. -/
theorem logSoftmax_host {A N : Nat} (y : FVec Ideal ⟨2, ![A, N]⟩ .f32)
    (h' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hS : (⟨0, ![]⟩ : Shape).BroadcastsInDim ⟨1, ![A]⟩ (![] : Fin 0 → Fin 1))
    (hd : (⟨1, ![A]⟩ : Shape).BroadcastsInDim ⟨2, ![A, 1]⟩ ![0])
    (hbc : (⟨2, ![A, 1]⟩ : Shape).BroadcastsInDim ⟨2, ![A, N]⟩ ![0, 1]) :
    subf (subf y (broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu)))))
      (broadcastInDim ⟨2, ![A, N]⟩ ![0, 1] hbc (Host.log (broadcastInDim ⟨2, ![A, 1]⟩ ![0] hd
        (Host.reduceAdd (Host.exp (subf y (broadcastInDim ⟨2, ![A, N]⟩ ![0, 1] hbc (broadcastInDim ⟨2, ![A, 1]⟩ ![0] hd
          (maximumf (broadcastInDim ⟨1, ![A]⟩ ![] hS (constant (F := Ideal) ⟨0, ![]⟩ .f32 0xFF800000#32))
            (Host.reduce FloatOps.maximumf y (constant (F := Ideal) ⟨0, ![]⟩ .f32 0xFF800000#32) h' hu))))))
          (constant (F := Ideal) ⟨0, ![]⟩ .f32 0x00000000#32) h' hu))))
      = logSoftmax y := by
  have hsh : subf y (broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu))))
      = fun j => y j - rowMax y (j 0 : Fin A) := by
    funext j
    obtain ⟨p, q, rfl⟩ : ∃ (p : Fin A) (q : Fin N), j = ix2 p q := ⟨j 0, j 1, eq_ix2 j⟩
    rw [subf_apply, rowMax_host y h' hr hu hS hd hbc p q]
    rfl
  rw [hsh]
  funext j
  obtain ⟨p, q, rfl⟩ : ∃ (p : Fin A) (q : Fin N), j = ix2 p q := ⟨j 0, j 1, eq_ix2 j⟩
  rw [subf_apply, col2_host hbc _ p q, hostLog_apply, col1_host hd _ p 0]
  show (y (ix2 p q) - rowMax y p) - Ideal.log _ = (y (ix2 p q) - rowMax y p) - Ideal.log _
  refine congrArg (fun s => (y (ix2 p q) - rowMax y p) - Ideal.log s) ?_
  show Ideal.hostReduceAdd h' (Host.exp fun j => y j - rowMax y (j 0 : Fin A)) (Ideal.ofBits .f32 0x00000000#32) (ix1 p) = _
  rw [Ideal.hostReduceAdd_single h' hr, Ideal.ofBits_zero_f32, zero_add]
  show ∑ k : Fin N, _ = ∑ k : Fin N, _
  refine Finset.sum_congr rfl fun k _ => ?_
  have el : hr.lift (ix1 p) k = ix2 p k := funext fun c => Fin.ext (by
    match c with
    | ⟨0, _⟩ => rfl
    | ⟨1, _⟩ => rfl)
  rw [el, hostExp_apply]
  rfl

/-! ## The layers -/

/-- A hidden layer: relu of the dense map of each row. -/
def reluDense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal := relu (dense A K N x w b)

/-- The last layer: the log-softmax of the dense map of each row. -/
def lsmDense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal := logSoftmax (dense A K N x w b)

/-- Entry (p, q) of a hidden layer depends on row p of its input only. -/
theorem reluDense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    reluDense A K N x w b (ix2 p q) = reluDense A' K N x' w b (ix2 r q) :=
  relu_congr _ _ _ _ (dense_row x x' w b p r q h)

/-- Entry (p, q) of the last layer depends on row p of its input only. -/
theorem lsmDense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    lsmDense A K N x w b (ix2 p q) = lsmDense A' K N x' w b (ix2 r q) :=
  logSoftmax_row _ _ p r q fun k => dense_row x x' w b p r k h

/-- The host's hidden layer (dot_general, the bias broadcast twice, the maximum with a broadcast zero) is relu of the
    dense map of each row. -/
theorem reluDense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1])
    (hS : (⟨0, ![]⟩ : Shape).BroadcastsInDim ⟨2, ![A, N]⟩ (![] : Fin 0 → Fin 2)) :
    maximumf (addf (Host.dotGeneral (DotDims.plain A K N) none x w)
        (broadcastInDim ⟨2, ![A, N]⟩ ![0, 1] hbc (broadcastInDim ⟨2, ![1, N]⟩ ![1] hd b)))
      (broadcastInDim ⟨2, ![A, N]⟩ ![] hS (constant (F := Ideal) ⟨0, ![]⟩ .f32 0x00000000#32)) = reluDense A K N x w b := by
  rw [dense_host x w b hd hbc]
  exact relu_host _ hS

/-- The host's last layer: the log-softmax spelt over the dense map y is the log-softmax of the dense map of each row. -/
theorem lsmDense_host {A K N : Nat} (x : FVec Ideal ⟨2, ![A, K]⟩ .f32) (w : FVec Ideal ⟨2, ![K, N]⟩ .f32)
    (b : FVec Ideal ⟨1, ![N]⟩ .f32) (y : FVec Ideal ⟨2, ![A, N]⟩ .f32)
    (hd1 : (⟨1, ![N]⟩ : Shape).BroadcastsInDim ⟨2, ![1, N]⟩ ![1])
    (hbc1 : (⟨2, ![1, N]⟩ : Shape).BroadcastsInDim ⟨2, ![A, N]⟩ ![0, 1])
    (hy : y = addf (Host.dotGeneral (DotDims.plain A K N) none x w)
      (broadcastInDim ⟨2, ![A, N]⟩ ![0, 1] hbc1 (broadcastInDim ⟨2, ![1, N]⟩ ![1] hd1 b)))
    (h' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hS : (⟨0, ![]⟩ : Shape).BroadcastsInDim ⟨1, ![A]⟩ (![] : Fin 0 → Fin 1))
    (hd : (⟨1, ![A]⟩ : Shape).BroadcastsInDim ⟨2, ![A, 1]⟩ ![0])
    (hbc : (⟨2, ![A, 1]⟩ : Shape).BroadcastsInDim ⟨2, ![A, N]⟩ ![0, 1]) :
    subf (subf y (broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu)))))
      (broadcastInDim ⟨2, ![A, N]⟩ ![0, 1] hbc (Host.log (broadcastInDim ⟨2, ![A, 1]⟩ ![0] hd
        (Host.reduceAdd (Host.exp (subf y (broadcastInDim ⟨2, ![A, N]⟩ ![0, 1] hbc (broadcastInDim ⟨2, ![A, 1]⟩ ![0] hd
          (maximumf (broadcastInDim ⟨1, ![A]⟩ ![] hS (constant (F := Ideal) ⟨0, ![]⟩ .f32 0xFF800000#32))
            (Host.reduce FloatOps.maximumf y (constant (F := Ideal) ⟨0, ![]⟩ .f32 0xFF800000#32) h' hu))))))
          (constant (F := Ideal) ⟨0, ![]⟩ .f32 0x00000000#32) h' hu))))
      = lsmDense A K N x w b := by
  rw [logSoftmax_host y h' hr hu hS hd hbc, hy, dense_host x w b hd1 hbc1]
  rfl

/-- The kernel's hidden layer on a tile of rows. -/
theorem reluDense_kernel {A K N : Nat} (x : FVec Ideal ⟨2, ![A, K]⟩ .f32) (w : FVec Ideal ⟨2, ![K, N]⟩ .f32)
    (b1 : FVec Ideal ⟨2, ![1, N]⟩ .f32) (hlt : FTy.bits .bf16 < FTy.bits .f32)
    (hx : (⟨2, ![A, K]⟩ : Shape).ShapeCasts ⟨2, ![A, K]⟩)
    (h1 : (⟨2, ![1, N]⟩ : Shape).ShapeCasts ⟨2, ![1, N]⟩) (hb : (⟨2, ![1, N]⟩ : Shape).Broadcasts ⟨2, ![A, N]⟩) :
    maximumf (addf (matmul (DotDims.plain A K N) none (truncf .bf16 (shapeCast ⟨2, ![A, K]⟩ x hx) hlt) (truncf .bf16 w hlt)
        (constant ⟨2, ![A, N]⟩ .f32 0x00000000#32))
      (broadcastTo ⟨2, ![A, N]⟩ (shapeCast ⟨2, ![1, N]⟩ b1 h1) hb))
      (broadcast ⟨2, ![A, N]⟩ (Scalar.ofBits (F := Ideal) .f32 0x00000000#32)) = reluDense A K N x w (rowVec b1) := by
  rw [dense_kernel_row x w b1 hlt hx h1 hb]
  exact relu_kernel _

/-- The kernel's last layer on a tile of rows: the log-softmax spelt over its dense map y. -/
theorem lsmDense_kernel {A K N : Nat} (x : FVec Ideal ⟨2, ![A, K]⟩ .f32) (w : FVec Ideal ⟨2, ![K, N]⟩ .f32)
    (b1 : FVec Ideal ⟨2, ![1, N]⟩ .f32) (y : FVec Ideal ⟨2, ![A, N]⟩ .f32) (hlt : FTy.bits .bf16 < FTy.bits .f32)
    (hx : (⟨2, ![A, K]⟩ : Shape).ShapeCasts ⟨2, ![A, K]⟩)
    (h1 : (⟨2, ![1, N]⟩ : Shape).ShapeCasts ⟨2, ![1, N]⟩) (hb : (⟨2, ![1, N]⟩ : Shape).Broadcasts ⟨2, ![A, N]⟩)
    (hy : y = addf (matmul (DotDims.plain A K N) none (truncf .bf16 (shapeCast ⟨2, ![A, K]⟩ x hx) hlt) (truncf .bf16 w hlt)
        (constant ⟨2, ![A, N]⟩ .f32 0x00000000#32))
      (broadcastTo ⟨2, ![A, N]⟩ (shapeCast ⟨2, ![1, N]⟩ b1 h1) hb))
    (hr : (⟨2, ![A, N]⟩ : Shape).Reduces [1] ⟨1, ![A]⟩) (hφ : FKind.Formats .f32)
    (hm : (0xFF800000#32 : BitVec 32) = FKind.maximumf.neutral .f32 hφ)
    (ha : (0x00000000#32 : BitVec 32) = FKind.add.neutral .f32 hφ)
    (hc : (⟨1, ![A]⟩ : Shape).ShapeCasts ⟨2, ![A, 1]⟩) (hbc : (⟨2, ![A, 1]⟩ : Shape).Broadcasts ⟨2, ![A, N]⟩) :
    subf (subf y (broadcastTo ⟨2, ![A, N]⟩ (shapeCast ⟨2, ![A, 1]⟩ (multiReduction .maximumf [1] ⟨1, ![A]⟩ y 0xFF800000#32 hr hφ hm) hc) hbc))
      (broadcastTo ⟨2, ![A, N]⟩ (log (shapeCast ⟨2, ![A, 1]⟩ (multiReduction .add [1] ⟨1, ![A]⟩
        (exp (subf y (broadcastTo ⟨2, ![A, N]⟩ (shapeCast ⟨2, ![A, 1]⟩ (multiReduction .maximumf [1] ⟨1, ![A]⟩ y 0xFF800000#32 hr hφ hm) hc) hbc)))
        0x00000000#32 hr hφ ha) hc)) hbc)
      = lsmDense A K N x w (rowVec b1) := by
  rw [logSoftmax_kernel y hr hφ hm ha hc hbc, hy, dense_kernel_row x w b1 hlt hx h1 hb]
  rfl

end Cert.LibLayers

end
-- ==== Proof.Mlp.lean ====
import proofs.«177825_j66228395705230_1_alg».proof.Proof.LibLayers

/-!
# The two-layer perceptron as a function of rows

`mlp` takes an [A, K] matrix of rows, weights [K, H] and [H, N] and biases [H] and [N] to the [A, N] matrix

  relu (relu (x · w1 + b1) · w2 + b2),    relu y = max y 0,   (x · w)(r, n) = sum_k x(r, k) * w(k, n).

Entry (r, n) of the result depends on row r of x only, which is what lets the kernel's fifty blocks of rows be set
against the reference's whole matrices. Both programs' spellings are read to this one function: the kernel's (the rows
narrowed to bf16, the weights arriving narrowed and cast to their own shape, a matrix product into a zero splat, the
bias a [1, n] row repeated down the rows, a maximum with a splatted zero) and the host's (dot_general, the bias
broadcast to one row and then down the rows, a maximum with a broadcast zero). Narrowing is the identity at the ideal
values, the two matrix products are the same sums in the same order, and no law of arithmetic is used beyond 0 + x = x.
-/

noncomputable section

open scoped BigOperators

namespace Cert.Mlp

open Idealize.ShloMosaic Idealize.ShloMosaic.ValueIdx Cert.LibDense Cert.LibLayers

/-- The two-layer perceptron on `A` rows. -/
def mlp (A K H N : Nat) (x : (⟨2, ![A, K]⟩ : Shape).Idx → EReal) (w1 : (⟨2, ![K, H]⟩ : Shape).Idx → EReal)
    (b1 : (⟨1, ![H]⟩ : Shape).Idx → EReal) (w2 : (⟨2, ![H, N]⟩ : Shape).Idx → EReal) (b2 : (⟨1, ![N]⟩ : Shape).Idx → EReal) :
    (⟨2, ![A, N]⟩ : Shape).Idx → EReal :=
  reluDense A H N (reluDense A K H x w1 b1) w2 b2

/-- Entry (p, q) depends on row p of the input only: two inputs that agree on a row give the same entries there. -/
theorem mlp_row {A A' K H N : Nat} (x : (⟨2, ![A, K]⟩ : Shape).Idx → EReal) (x' : (⟨2, ![A', K]⟩ : Shape).Idx → EReal)
    (w1 : (⟨2, ![K, H]⟩ : Shape).Idx → EReal) (b1 : (⟨1, ![H]⟩ : Shape).Idx → EReal)
    (w2 : (⟨2, ![H, N]⟩ : Shape).Idx → EReal) (b2 : (⟨1, ![N]⟩ : Shape).Idx → EReal)
    (p : Fin A) (r : Fin A') (q : Fin N) (h : ∀ k : Fin K, x (ix2 p k) = x' (ix2 r k)) :
    mlp A K H N x w1 b1 w2 b2 (ix2 p q) = mlp A' K H N x' w1 b1 w2 b2 (ix2 r q) :=
  reluDense_row _ _ w2 b2 p r q fun k => reluDense_row x x' w1 b1 p r k h

/-- The kernel's hidden layer when the weight arrives already narrowed and is cast to its own shape. -/
theorem reluDense_kernel_w {A K N : Nat} (x : FVec Ideal ⟨2, ![A, K]⟩ .f32) (w : FVec Ideal ⟨2, ![K, N]⟩ .bf16)
    (b1 : FVec Ideal ⟨2, ![1, N]⟩ .f32) (hlt : FTy.bits .bf16 < FTy.bits .f32)
    (hx : (⟨2, ![A, K]⟩ : Shape).ShapeCasts ⟨2, ![A, K]⟩) (hw : (⟨2, ![K, N]⟩ : Shape).ShapeCasts ⟨2, ![K, N]⟩)
    (h1 : (⟨2, ![1, N]⟩ : Shape).ShapeCasts ⟨2, ![1, N]⟩) (hb : (⟨2, ![1, N]⟩ : Shape).Broadcasts ⟨2, ![A, N]⟩) :
    maximumf (addf (matmul (DotDims.plain A K N) none (truncf .bf16 x hlt) (shapeCast ⟨2, ![K, N]⟩ w hw)
        (constant ⟨2, ![A, N]⟩ .f32 0x00000000#32))
      (broadcastTo ⟨2, ![A, N]⟩ (shapeCast ⟨2, ![1, N]⟩ b1 h1) hb))
      (broadcast ⟨2, ![A, N]⟩ (Scalar.ofBits (F := Ideal) .f32 0x00000000#32)) = reluDense A K N x w (rowVec b1) := by
  have h := reluDense_kernel x (w : FVec Ideal ⟨2, ![K, N]⟩ .f32) b1 hlt hx h1 hb
  rw [shapeCast_self x hx] at h
  rw [shapeCast_self w hw]
  exact h

/-- The kernel's spelling of the perceptron on a tile of rows. -/
theorem mlp_kernel {A K H N : Nat} (x : FVec Ideal ⟨2, ![A, K]⟩ .f32) (w1 : FVec Ideal ⟨2, ![K, H]⟩ .bf16)
    (b1 : FVec Ideal ⟨2, ![1, H]⟩ .f32) (w2 : FVec Ideal ⟨2, ![H, N]⟩ .bf16) (b2 : FVec Ideal ⟨2, ![1, N]⟩ .f32)
    (hlt : FTy.bits .bf16 < FTy.bits .f32)
    (hx : (⟨2, ![A, K]⟩ : Shape).ShapeCasts ⟨2, ![A, K]⟩) (hh : (⟨2, ![A, H]⟩ : Shape).ShapeCasts ⟨2, ![A, H]⟩)
    (hw1 : (⟨2, ![K, H]⟩ : Shape).ShapeCasts ⟨2, ![K, H]⟩) (hw2 : (⟨2, ![H, N]⟩ : Shape).ShapeCasts ⟨2, ![H, N]⟩)
    (hc1 : (⟨2, ![1, H]⟩ : Shape).ShapeCasts ⟨2, ![1, H]⟩) (hb1 : (⟨2, ![1, H]⟩ : Shape).Broadcasts ⟨2, ![A, H]⟩)
    (hc2 : (⟨2, ![1, N]⟩ : Shape).ShapeCasts ⟨2, ![1, N]⟩) (hb2 : (⟨2, ![1, N]⟩ : Shape).Broadcasts ⟨2, ![A, N]⟩) :
    maximumf (addf (matmul (DotDims.plain A H N) none
        (truncf .bf16 (maximumf (addf (matmul (DotDims.plain A K H) none (truncf .bf16 x hlt) (shapeCast ⟨2, ![K, H]⟩ w1 hw1)
              (constant ⟨2, ![A, H]⟩ .f32 0x00000000#32))
            (broadcastTo ⟨2, ![A, H]⟩ (shapeCast ⟨2, ![1, H]⟩ b1 hc1) hb1))
          (broadcast ⟨2, ![A, H]⟩ (Scalar.ofBits (F := Ideal) .f32 0x00000000#32))) hlt)
        (shapeCast ⟨2, ![H, N]⟩ w2 hw2) (constant ⟨2, ![A, N]⟩ .f32 0x00000000#32))
      (broadcastTo ⟨2, ![A, N]⟩ (shapeCast ⟨2, ![1, N]⟩ b2 hc2) hb2))
      (broadcast ⟨2, ![A, N]⟩ (Scalar.ofBits (F := Ideal) .f32 0x00000000#32))
      = mlp A K H N x w1 (rowVec b1) w2 (rowVec b2) := by
  rw [reluDense_kernel_w x w1 b1 hlt hx hw1 hc1 hb1]
  exact reluDense_kernel_w (reluDense A K H x w1 (rowVec b1)) w2 b2 hlt hh hw2 hc2 hb2

/-- The host's spelling of the perceptron on all rows. -/
theorem mlp_host {A K H N : Nat} (x : FVec Ideal ⟨2, ![A, K]⟩ .f32) (w1 : FVec Ideal ⟨2, ![K, H]⟩ .f32)
    (b1 : FVec Ideal ⟨1, ![H]⟩ .f32) (w2 : FVec Ideal ⟨2, ![H, N]⟩ .f32) (b2 : FVec Ideal ⟨1, ![N]⟩ .f32)
    (hd1 : (⟨1, ![H]⟩ : Shape).BroadcastsInDim ⟨2, ![1, H]⟩ ![1])
    (hbc1 : (⟨2, ![1, H]⟩ : Shape).BroadcastsInDim ⟨2, ![A, H]⟩ ![0, 1])
    (hS1 : (⟨0, ![]⟩ : Shape).BroadcastsInDim ⟨2, ![A, H]⟩ (![] : Fin 0 → Fin 2))
    (hd2 : (⟨1, ![N]⟩ : Shape).BroadcastsInDim ⟨2, ![1, N]⟩ ![1])
    (hbc2 : (⟨2, ![1, N]⟩ : Shape).BroadcastsInDim ⟨2, ![A, N]⟩ ![0, 1])
    (hS2 : (⟨0, ![]⟩ : Shape).BroadcastsInDim ⟨2, ![A, N]⟩ (![] : Fin 0 → Fin 2)) :
    maximumf (addf (Host.dotGeneral (DotDims.plain A H N) none
        (maximumf (addf (Host.dotGeneral (DotDims.plain A K H) none x w1)
            (broadcastInDim ⟨2, ![A, H]⟩ ![0, 1] hbc1 (broadcastInDim ⟨2, ![1, H]⟩ ![1] hd1 b1)))
          (broadcastInDim ⟨2, ![A, H]⟩ ![] hS1 (constant (F := Ideal) ⟨0, ![]⟩ .f32 0x00000000#32))) w2)
        (broadcastInDim ⟨2, ![A, N]⟩ ![0, 1] hbc2 (broadcastInDim ⟨2, ![1, N]⟩ ![1] hd2 b2)))
      (broadcastInDim ⟨2, ![A, N]⟩ ![] hS2 (constant (F := Ideal) ⟨0, ![]⟩ .f32 0x00000000#32))
      = mlp A K H N x w1 b1 w2 b2 := by
  rw [reluDense_host x w1 b1 hd1 hbc1 hS1]
  exact reluDense_host (reluDense A K H x w1 b1) w2 b2 hd2 hbc2 hS2

end Cert.Mlp

end
-- ==== Proof.KernelIdealValue.lean ====
import proofs.«177825_j66228395705230_1_alg».proof.Proof.KernelIdealRun
import proofs.«177825_j66228395705230_1_alg».proof.Proof.KernelIdealTail
import proofs.«177825_j66228395705230_1_alg».proof.Proof.Mlp
import Idealize.ShloMosaic.Lib.Pipeline.Value
import Idealize.ShloMosaic.Lib.ValueIdx
import Idealize.ShloMosaic.Lib.StableHlo.Run

/-!
# What the idealized kernel's program computes

At the ideal values the pallas_call's result array is the two-layer perceptron of the argument arrays: point `t` of
the grid writes rows `2000 t … 2000 t + 1999`, computed from the same rows of `x` and from the whole weights and biases
(which the host lines before the call only narrow, an identity here, or reshape to one row), and an entry of the
perceptron depends on its own row of `x` only; the fifty blocks tile the array. The 270 host lines after the call
then turn that array and the edge list into the propagation.
-/

set_option maxRecDepth 16384

noncomputable section

namespace Cert.KernelIdeal.Result

open Cert.KernelIdeal Cert.KernelIdeal.Gen Cert.KernelIdeal.Around
open Idealize.ShloMosaic Idealize.ShloMosaic.TcCoe Idealize.SL.Sem Idealize.ShloMosaic.ValueIdx
open Idealize.ShloMosaic.Pipeline (Dat)
open Cert.Mlp Cert.LibLayers

variable (m : (ℓ : Loc nD τ sig) → Buf (Elt Ideal) ℓ) (ρ : Dev nD → PrngReg)

theorem hz : (![0, 0] : Fin 2 → Nat) = fun _ => 0 := funext fun a => by fin_cases a <;> rfl

/-! ## The body's payload is the perceptron of its blocks -/

theorem pay_eq (x0 : Vec Ideal S2000x512 .f32) (x1 : Vec Ideal S512x256 .bf16) (x2 : Vec Ideal S1x256 .f32)
    (x3 : Vec Ideal S256x40 .bf16) (x4 : Vec Ideal S1x40 .f32) :
    k0_pay1 (F := Ideal) x0 x1 x2 x3 x4 = mlp 2000 512 256 40 x0 x1 (rowVec x2) x3 (rowVec x4) :=
  mlp_kernel (A := 2000) (K := 512) (H := 256) (N := 40) x0 x1 x2 x3 x4 bitsLt_bf16_f32
    (by decide) (by decide) shapeCasts_S512x256_S512x256 shapeCasts_S256x40_S256x40
    shapeCasts_S1x256_S1x256 broadcasts_S1x256_S2000x256 shapeCasts_S1x40_S1x40 broadcasts_S1x40_S2000x40

/-! ## The arrays the pallas_call finds -/

/-- The perceptron of the argument arrays, on all rows. -/
def H (c : Dev nD) : S100000x40.Idx → EReal :=
  mlp 100000 512 256 40 (m ((c : Thread nD τ).loc main_arg0) : S100000x512.Idx → EReal)
    (m ((c : Thread nD τ).loc main_arg2) : S512x256.Idx → EReal) (m ((c : Thread nD τ).loc main_arg3) : S256.Idx → EReal)
    (m ((c : Thread nD τ).loc main_arg4) : S256x40.Idx → EReal) (m ((c : Thread nD τ).loc main_arg5) : S40.Idx → EReal)

/-- The first weight matrix arrives narrowed: the same extended reals. -/
theorem V_v0 (c : Dev nD) : (V m c main_v0 : S512x256.Idx → EReal) = (m ((c : Thread nD τ).loc main_arg2) : S512x256.Idx → EReal) := by
  show StableHlo.after hostOps0 (fun b => m (c, b)) (Proc.devRef .tc main_v0) = _
  after_results; rfl
theorem V_v1 (c : Dev nD) : (V m c main_v1 : S256x40.Idx → EReal) = (m ((c : Thread nD τ).loc main_arg4) : S256x40.Idx → EReal) := by
  show StableHlo.after hostOps0 (fun b => m (c, b)) (Proc.devRef .tc main_v1) = _
  after_results; rfl
/-- The first bias arrives as one row. -/
theorem V_v2 (c : Dev nD) : (V m c main_v2 : S1x256.Idx → EReal)
    = shapeCast S1x256 (m ((c : Thread nD τ).loc main_arg3) : S256.Idx → EReal) shapeCasts_S256_S1x256 := by
  show StableHlo.after hostOps0 (fun b => m (c, b)) (Proc.devRef .tc main_v2) = _
  after_results; rfl
theorem V_v3 (c : Dev nD) : (V m c main_v3 : S1x40.Idx → EReal)
    = shapeCast S1x40 (m ((c : Thread nD τ).loc main_arg5) : S40.Idx → EReal) shapeCasts_S40_S1x40 := by
  show StableHlo.after hostOps0 (fun b => m (c, b)) (Proc.devRef .tc main_v3) = _
  after_results; rfl

/-! ## The windows' blocks -/

/-- The printed index maps over the grid: the rows of `x` and of the result move with the point, the other four
    windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the first window's block at point `t` is row `2000 t + p` of `x`. -/
theorem iblk0_apply (c : Dev nD) (t : Fin cfg0.N) (p : Fin 2000) (k : Fin 512) (r : Fin 100000) (hr : r.val = 2000 * t.val + p.val) :
    (iblk m c 0 t : Vec Ideal S2000x512 .f32) (ix2 p k) = (m ((c : Thread nD τ).loc main_arg0) : S100000x512.Idx → EReal) (ix2 r k) := by
  obtain ⟨e0, e1, -⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 2000 + 1 * p.val = r.val; rw [e0, hr]; omega
  | ⟨1, _⟩ => show win0_0.index t 1 * 512 + 1 * k.val = k.val; rw [e1]; omega

/-- The four resident windows' blocks are their whole arrays. -/
theorem iblk1_eq (c : Dev nD) (t : Fin cfg0.N) : (iblk m c 1 t : Vec Ideal S512x256 .bf16) = (m ((c : Thread nD τ).loc main_arg2) : S512x256.Idx → EReal) := by
  obtain ⟨-, -, e0, e1, -⟩ := idx_facts t
  have hz' : (fun a => win0_1.index t a * main_v0.ty.shape.size a) = fun _ => 0 := funext fun a => by
    match a with
    | ⟨0, _⟩ => show win0_1.index t 0 * 512 = 0; rw [e0]
    | ⟨1, _⟩ => show win0_1.index t 1 * 256 = 0; rw [e1]
  exact (Memref.read_access_unit_zero (Elt Ideal) main_v0 hz' (fun a => by rw [congrFun hz' a]; simp) (V m c main_v0)).trans (V_v0 m c)
theorem iblk3_eq (c : Dev nD) (t : Fin cfg0.N) : (iblk m c 3 t : Vec Ideal S256x40 .bf16) = (m ((c : Thread nD τ).loc main_arg4) : S256x40.Idx → EReal) := by
  obtain ⟨-, -, -, -, -, -, e0, e1, -⟩ := idx_facts t
  have hz' : (fun a => win0_3.index t a * main_v1.ty.shape.size a) = fun _ => 0 := funext fun a => by
    match a with
    | ⟨0, _⟩ => show win0_3.index t 0 * 256 = 0; rw [e0]
    | ⟨1, _⟩ => show win0_3.index t 1 * 40 = 0; rw [e1]
  exact (Memref.read_access_unit_zero (Elt Ideal) main_v1 hz' (fun a => by rw [congrFun hz' a]; simp) (V m c main_v1)).trans (V_v1 m c)
theorem iblk2_eq (c : Dev nD) (t : Fin cfg0.N) : rowVec (iblk m c 2 t : Vec Ideal S1x256 .f32) = (m ((c : Thread nD τ).loc main_arg3) : S256.Idx → EReal) := by
  obtain ⟨-, -, -, -, e0, e1, -⟩ := idx_facts t
  have hz' : (fun a => win0_2.index t a * main_v2.ty.shape.size a) = fun _ => 0 := funext fun a => by
    match a with
    | ⟨0, _⟩ => show win0_2.index t 0 * 1 = 0; rw [e0]
    | ⟨1, _⟩ => show win0_2.index t 1 * 256 = 0; rw [e1]
  have h : (iblk m c 2 t : Vec Ideal S1x256 .f32) = shapeCast S1x256 (m ((c : Thread nD τ).loc main_arg3) : S256.Idx → EReal) shapeCasts_S256_S1x256 :=
    (Memref.read_access_unit_zero (Elt Ideal) main_v2 hz' (fun a => by rw [congrFun hz' a]; simp) (V m c main_v2)).trans (V_v2 m c)
  rw [h]
  exact rowVec_shapeCast _ _
theorem iblk4_eq (c : Dev nD) (t : Fin cfg0.N) : rowVec (iblk m c 4 t : Vec Ideal S1x40 .f32) = (m ((c : Thread nD τ).loc main_arg5) : S40.Idx → EReal) := by
  obtain ⟨-, -, -, -, -, -, -, -, e0, e1, -⟩ := idx_facts t
  have hz' : (fun a => win0_4.index t a * main_v3.ty.shape.size a) = fun _ => 0 := funext fun a => by
    match a with
    | ⟨0, _⟩ => show win0_4.index t 0 * 1 = 0; rw [e0]
    | ⟨1, _⟩ => show win0_4.index t 1 * 40 = 0; rw [e1]
  have h : (iblk m c 4 t : Vec Ideal S1x40 .f32) = shapeCast S1x40 (m ((c : Thread nD τ).loc main_arg5) : S40.Idx → EReal) shapeCasts_S40_S1x40 :=
    (Memref.read_access_unit_zero (Elt Ideal) main_v3 hz' (fun a => by rw [congrFun hz' a]; simp) (V m c main_v3)).trans (V_v3 m c)
  rw [h]
  exact rowVec_shapeCast _ _

/-! ## From blocks to the array -/

/-- One entry of what a point computes, over variables: the perceptron of a tile whose row `p` is row `r` of `X`. -/
theorem point_eq (x0 : Vec Ideal S2000x512 .f32) (w1 : Vec Ideal S512x256 .bf16) (b1 : Vec Ideal S1x256 .f32)
    (w2 : Vec Ideal S256x40 .bf16) (b2 : Vec Ideal S1x40 .f32)
    (X : S100000x512.Idx → EReal) (W1 : S512x256.Idx → EReal) (B1 : S256.Idx → EReal) (W2 : S256x40.Idx → EReal) (B2 : S40.Idx → EReal)
    (hw1 : w1 = W1) (hb1 : rowVec b1 = B1) (hw2 : w2 = W2) (hb2 : rowVec b2 = B2)
    (p : Fin 2000) (q : Fin 40) (r : Fin 100000) (hx : ∀ k : Fin 512, x0 (ix2 p k) = X (ix2 r k)) :
    k0_pay1 (F := Ideal) x0 w1 b1 w2 b2 (ix2 p q) = mlp 100000 512 256 40 X W1 B1 W2 B2 (ix2 r q) := by
  rw [pay_eq, hw1, hb1, hw2, hb2]
  exact mlp_row x0 X W1 B1 W2 B2 p r q hx

/-- What point `t` writes back is block `t` of the perceptron of the arguments. -/
theorem flushed5_eq (c : Dev nD) (t : Fin cfg0.N) :
    (dats m 0 c).flushed 5 t = ((cfg0.win 5).blk t).view.read (Elt Ideal) (H m c) := by
  show (cfg0.win 5).cut (grid0.coords t) ((dats m 0 c).after 5 t) = _
  rw [after0_5]
  unfold out0_5
  rw [View.canon_unit_zero hz]
  simp only [View.ld_unit_zero (S := S2000x512) hz, View.ld_unit_zero (S := S512x256) hz, View.ld_unit_zero (S := S1x256) hz,
    View.ld_unit_zero (S := S256x40) hz, View.ld_unit_zero (S := S1x40) hz]
  obtain ⟨-, -, -, -, -, -, -, -, -, -, e0, e1⟩ := idx_facts t
  funext j
  obtain ⟨p, q, rfl⟩ : ∃ (p : Fin 2000) (q : Fin 40), j = ix2 p q := ⟨j 0, j 1, eq_ix2 j⟩
  have hr : 2000 * t.val + p.val < 100000 := by
    have ht : t.val < 50 := by
      have h := t.isLt
      have hN : cfg0.N = 50 := N_0
      omega
    have hp := p.isLt
    omega
  rw [View.read_apply]
  have hemb : ((cfg0.win 5).blk t).view.emb (ix2 p q) = (ix2 (⟨2000 * t.val + p.val, hr⟩ : Fin 100000) q : S100000x40.Idx) := by
    funext a
    apply Fin.ext
    match a with
    | ⟨0, _⟩ => show win0_5.index t 0 * 2000 + 1 * p.val = 2000 * t.val + p.val; rw [e0]; omega
    | ⟨1, _⟩ => show win0_5.index t 1 * 40 + 1 * q.val = q.val; rw [e1]; omega
  show k0_pay1 (F := Ideal) (iblk m c 0 t) (iblk m c 1 t) (iblk m c 2 t) (iblk m c 3 t) (iblk m c 4 t) (ix2 p q) = H m c (((cfg0.win 5).blk t).view.emb (ix2 p q))
  rw [hemb]
  exact point_eq (iblk m c 0 t) (iblk m c 1 t) (iblk m c 2 t) (iblk m c 3 t) (iblk m c 4 t) _ _ _ _ _
    (iblk1_eq m c t) (iblk2_eq m c t) (iblk3_eq m c t) (iblk4_eq m c t) p q ⟨2000 * t.val + p.val, hr⟩
    (fun k => iblk0_apply m c t p k ⟨2000 * t.val + p.val, hr⟩ rfl)

/-- An index of the result array is in point `t`'s block iff each coordinate is in the block's range on its axis. -/
theorem mem_blk5 (t : Fin cfg0.N) (i : S100000x40.Idx) :
    i ∈ ((cfg0.win 5).blk t).view.set ↔ ∀ a : Fin 2, win0_5.index t a * S2000x40.size a ≤ (i a).val ∧ (i a).val < win0_5.index t a * S2000x40.size a + S2000x40.size a := by
  show i ∈ ((View.whole main_v4).slice (win0_5.rect t)).set ↔ _
  rw [View.set_slice_whole, Rect.mem_set_unit]
  exact Iff.rfl

/-- Every row lies in the block of the point `row / 2000`. -/
theorem cover5 (i : S100000x40.Idx) : ∃ t : Fin cfg0.N, (cfg0.win 5).flush t = true ∧ i ∈ ((cfg0.win 5).blk t).view.set := by
  have hi0 : (i 0).val < 100000 := (i 0).isLt
  have hi1 : (i 1).val < 40 := (i 1).isLt
  have hN : cfg0.N = 50 := N_0
  let t : Fin cfg0.N := ⟨(i 0).val / 2000, by rw [hN]; omega⟩
  refine ⟨t, flush0_5 t, ?_⟩
  obtain ⟨-, -, -, -, -, -, -, -, -, -, e0, e1⟩ := idx_facts t
  rw [mem_blk5]
  intro a
  match a with
  | ⟨0, _⟩ =>
    show win0_5.index t 0 * 2000 ≤ (i 0).val ∧ (i 0).val < win0_5.index t 0 * 2000 + 2000
    rw [e0]
    show (i 0).val / 2000 * 2000 ≤ (i 0).val ∧ (i 0).val < (i 0).val / 2000 * 2000 + 2000
    omega
  | ⟨1, _⟩ =>
    show win0_5.index t 1 * 40 ≤ (i 1).val ∧ (i 1).val < win0_5.index t 1 * 40 + 40
    rw [e1]
    omega

/-- The pallas_call's result array after the run is the perceptron of the arguments. -/
theorem final5 (c : Dev nD) : (dats m 0 c).arrAt 5 cfg0.N = H m c :=
  (dats m 0 c).arrAt_eq_of_cover 5 (H m c) (fun t _ => flushed5_eq m c t) cover5

/-! ## The program's result -/

/-- After the later host lines the result buffer holds the propagation of the edge list and the perceptron. -/
theorem result_eq (c : Dev nD) :
    Pipeline.afterTail₀ cfgs (dats m) 0 (V0 m) tailOps c main_v214
      = Cert.Propagate.propagate (F := Ideal) (m ((c : Thread nD τ).loc main_arg1)) (H m c) := by
  unfold Pipeline.afterTail₀
  rw [Cert.KernelIdeal.Tail.after_tail]
  refine congrArg₂ (Cert.Propagate.propagate (F := Ideal)) ?_ ?_
  · rw [Pipeline.withArrays_of_ne _ c (V0 m c) _ main_arg1 (by exact (by decide : ∀ w, Pipeline.arrRef spec0 w ≠ main_arg1))]
    exact V_main_arg1 m c
  · exact (Pipeline.withArrays_arr spec0 launch0.win.arr_inj c _ _ 5).trans (final5 m c)

/-- The run, read: the result at the propagation of the perceptron, the arguments unchanged. -/
theorem run : θ_run defs (onTc (τ := τ) (main (F := Ideal))) ⟨m, fun _ => 0, ρ⟩ fun r => ∀ c : Dev nD,
      r.2.mem ((c : Thread nD τ).loc main_v214) = Cert.Propagate.propagate (F := Ideal) (m ((c : Thread nD τ).loc main_arg1)) (H m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
      ⟨((h c).2 main_v214 (Pipeline.mem_restRefs_of main_v214 (by decide) (by decide))).trans (result_eq m c),
       ((h c).1 0).trans (((dats m 0 c).arrAt_in 0 rfl _).trans ((A_eq m c 0).trans (V_main_arg0 m c))),
       (((h c).2 main_arg1 (Pipeline.mem_restRefs_of main_arg1 (by decide) (by decide))).trans ((W_of_early m (dats m) c main_arg1 (by decide) (by decide)).trans (V_main_arg1 m c))),
       (((h c).2 main_arg2 (Pipeline.mem_restRefs_of main_arg2 (by decide) (by decide))).trans ((W_of_early m (dats m) c main_arg2 (by decide) (by decide)).trans (V_main_arg2 m c))),
       (((h c).2 main_arg3 (Pipeline.mem_restRefs_of main_arg3 (by decide) (by decide))).trans ((W_of_early m (dats m) c main_arg3 (by decide) (by decide)).trans (V_main_arg3 m c))),
       (((h c).2 main_arg4 (Pipeline.mem_restRefs_of main_arg4 (by decide) (by decide))).trans ((W_of_early m (dats m) c main_arg4 (by decide) (by decide)).trans (V_main_arg4 m c))),
       (((h c).2 main_arg5 (Pipeline.mem_restRefs_of main_arg5 (by decide) (by decide))).trans ((W_of_early m (dats m) c main_arg5 (by decide) (by decide)).trans (V_main_arg5 m c)))⟩)
    (run_main m ρ)

end Cert.KernelIdeal.Result

end
-- ==== Proof.RefRun.lean ====
import proofs.«177825_j66228395705230_1_alg».proof.Proof.Gen.ReferenceIdeal
import proofs.«177825_j66228395705230_1_alg».proof.Proof.Gen.KernelIdeal
import proofs.«177825_j66228395705230_1_alg».proof.Proof.Propagate
import proofs.«177825_j66228395705230_1_alg».proof.Proof.LibAfter
import Idealize.ShloMosaic.Lib.StableHlo.Run

/-!
# The reference program's run

The reference is 284 host operations in a row: fourteen that compute the perceptron `relu (relu (x·W1 + b1)·W2 + b2)`
with whole matrices, then the same 270 lines of propagation the kernel's program ends with. A straight line of host
operations runs to the end without a fault, each result buffer holding its operation applied to the results of the lines
it reads and the arguments untouched; so the result is the propagation of the edge list and of the perceptron's matrix.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The perceptron's fourteen operations, in order (a called function's operations stand in its call's place). -/
abbrev opsMlp : List (HloOp τ sig (Elt F)) :=
  [ binary main_arg0 main_arg2 main_v0 ((fun l r => Host.dotGeneral dot_S100000x512_S512x256_S100000x256_1_0_0_1_n_n none l r) : (⟨S100000x512, .f32⟩ : BufTy).Contents (Elt F) → (⟨S512x256, .f32⟩ : BufTy).Contents (Elt F) → (⟨S100000x256, .f32⟩ : BufTy).Contents (Elt F)),
    unary main_arg3 main_v1 (broadcastInDim S1x256 ![1] bcast_S256_S1x256_1 : (⟨S256, .f32⟩ : BufTy).Contents (Elt F) → (⟨S1x256, .f32⟩ : BufTy).Contents (Elt F)),
    unary main_v1 main_v2 (broadcastInDim S100000x256 ![0, 1] bcast_S1x256_S100000x256_0_1 : (⟨S1x256, .f32⟩ : BufTy).Contents (Elt F) → (⟨S100000x256, .f32⟩ : BufTy).Contents (Elt F)),
    binary main_v0 main_v2 main_v3 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v3) (TRef.of (T := ⟨S100000x256, .f32⟩) main_call0_v0) (TRef.of (T := ⟨S100000x256, .f32⟩) main_v4) maximumf,
    binary main_v4 main_arg4 main_v5 ((fun l r => Host.dotGeneral dot_S100000x256_S256x40_S100000x40_1_0_0_1_n_n none l r) : (⟨S100000x256, .f32⟩ : BufTy).Contents (Elt F) → (⟨S256x40, .f32⟩ : BufTy).Contents (Elt F) → (⟨S100000x40, .f32⟩ : BufTy).Contents (Elt F)),
    unary main_arg5 main_v6 (broadcastInDim S1x40 ![1] bcast_S40_S1x40_1 : (⟨S40, .f32⟩ : BufTy).Contents (Elt F) → (⟨S1x40, .f32⟩ : BufTy).Contents (Elt F)),
    unary main_v6 main_v7 (broadcastInDim S100000x40 ![0, 1] bcast_S1x40_S100000x40_0_1 : (⟨S1x40, .f32⟩ : BufTy).Contents (Elt F) → (⟨S100000x40, .f32⟩ : BufTy).Contents (Elt F)),
    binary main_v5 main_v7 main_v8 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x40, .f32⟩) main_call1_v0) (broadcastInDim S100000x40 ![] bcast_S_S100000x40),
    TRef.binary (TRef.of (T := ⟨S100000x40, .f32⟩) main_v8) (TRef.of (T := ⟨S100000x40, .f32⟩) main_call1_v0) (TRef.of (T := ⟨S100000x40, .f32⟩) main_v9) maximumf ]

/-- The propagation's 270 operations, in order. -/
abbrev opsTail : List (HloOp τ sig (Elt F)) :=
  [ nullary main_v10 (iotaInDim S100000 32 0),
    unary main_arg1 main_v11 ((extractStridedSlice S1x1600000 ![0, 0] · slices_S2x1600000_S1x1600000_0_0) : (⟨S2x1600000, .i32⟩ : BufTy).Contents (Elt F) → (⟨S1x1600000, .i32⟩ : BufTy).Contents (Elt F)),
    reshape main_v11 main_v12 rfl shapeCasts_S1x1600000_S1600000,
    binary main_v12 main_v10 main_v13 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v14 ((extractStridedSlice S1x1600000 ![1, 0] · slices_S2x1600000_S1x1600000_1_0) : (⟨S2x1600000, .i32⟩ : BufTy).Contents (Elt F) → (⟨S1x1600000, .i32⟩ : BufTy).Contents (Elt F)),
    reshape main_v14 main_v15 rfl shapeCasts_S1x1600000_S1600000,
    binary main_v15 main_v10 main_v16 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v17 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v18 (broadcastInDim S100000 ![] bcast_S_S100000 : (⟨S_, .f32⟩ : BufTy).Contents (Elt F) → (⟨S100000, .f32⟩ : BufTy).Contents (Elt F)),
    unary main_v16 main_v19 (broadcastInDim S1700000x1 ![0] bcast_S1700000_S1700000x1_0 : (⟨S1700000, .i32⟩ : BufTy).Contents (Elt F) → (⟨S1700000x1, .i32⟩ : BufTy).Contents (Elt F)),
    ternary main_v18 main_v19 main_v17 main_v20 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v21 (broadcastInDim S100000 ![] bcast_S_S100000 : (⟨S_, .f32⟩ : BufTy).Contents (Elt F) → (⟨S100000, .f32⟩ : BufTy).Contents (Elt F)),
    binary main_v20 main_v21 main_v22 (cmpf .ogt : (⟨S100000, .f32⟩ : BufTy).Contents (Elt F) → (⟨S100000, .f32⟩ : BufTy).Contents (Elt F) → (⟨S100000, .i1⟩ : BufTy).Contents (Elt F)),
    unary main_v20 main_v23 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v22) (TRef.of (T := ⟨S100000, .f32⟩) main_v23) (TRef.of (T := ⟨S100000, .f32⟩) main_call2_v1) (TRef.of (T := ⟨S100000, .f32⟩) main_v24) select,
    nullary main_c (constantI S_ 32 0#32),
    unary main_c main_v25 (broadcastInDim S1700000 ![] bcast_S_S1700000 : (⟨S_, .i32⟩ : BufTy).Contents (Elt F) → (⟨S1700000, .i32⟩ : BufTy).Contents (Elt F)),
    binary main_v13 main_v25 main_v26 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v27 (broadcastInDim S1700000 ![] bcast_S_S1700000 : (⟨S_, .i32⟩ : BufTy).Contents (Elt F) → (⟨S1700000, .i32⟩ : BufTy).Contents (Elt F)),
    binary main_v13 main_v27 main_v28 (addi : (⟨S1700000, .i32⟩ : BufTy).Contents (Elt F) → (⟨S1700000, .i32⟩ : BufTy).Contents (Elt F) → (⟨S1700000, .i32⟩ : BufTy).Contents (Elt F)),
    ternary main_v26 main_v28 main_v13 main_v29 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v29 main_v30 (broadcastInDim S1700000x1 ![0] bcast_S1700000_S1700000x1_0 : (⟨S1700000, .i32⟩ : BufTy).Contents (Elt F) → (⟨S1700000x1, .i32⟩ : BufTy).Contents (Elt F)),
    binary main_v24 main_v30 main_v31 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v32 (broadcastInDim S1700000 ![] bcast_S_S1700000 : (⟨S_, .i32⟩ : BufTy).Contents (Elt F) → (⟨S1700000, .i32⟩ : BufTy).Contents (Elt F)),
    binary main_v16 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v34 (broadcastInDim S1700000 ![] bcast_S_S1700000 : (⟨S_, .i32⟩ : BufTy).Contents (Elt F) → (⟨S1700000, .i32⟩ : BufTy).Contents (Elt F)),
    binary main_v16 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v16 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v24 main_v37 main_v38 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v31 main_v38 main_v39 (mulf : (⟨S1700000, .f32⟩ : BufTy).Contents (Elt F) → (⟨S1700000, .f32⟩ : BufTy).Contents (Elt F) → (⟨S1700000, .f32⟩ : BufTy).Contents (Elt F)),
    unary main_v39 main_v40 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v41 (broadcastInDim S1700000 ![] bcast_S_S1700000 : (⟨S_, .i32⟩ : BufTy).Contents (Elt F) → (⟨S1700000, .i32⟩ : BufTy).Contents (Elt F)),
    binary main_v13 main_v41 main_v42 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v43 (broadcastInDim S1700000 ![] bcast_S_S1700000 : (⟨S_, .i32⟩ : BufTy).Contents (Elt F) → (⟨S1700000, .i32⟩ : BufTy).Contents (Elt F)),
    binary main_v13 main_v43 main_v44 (addi : (⟨S1700000, .i32⟩ : BufTy).Contents (Elt F) → (⟨S1700000, .i32⟩ : BufTy).Contents (Elt F) → (⟨S1700000, .i32⟩ : BufTy).Contents (Elt F)),
    ternary main_v42 main_v44 main_v13 main_v45 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v45 main_v46 (broadcastInDim S1700000x1 ![0] bcast_S1700000_S1700000x1_0 : (⟨S1700000, .i32⟩ : BufTy).Contents (Elt F) → (⟨S1700000x1, .i32⟩ : BufTy).Contents (Elt F)),
    binary main_v9 main_v46 main_v47 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v40 main_v48 (broadcastInDim S1700000x40 ![0, 1] bcast_S1700000x1_S1700000x40_0_1 : (⟨S1700000x1, .f32⟩ : BufTy).Contents (Elt F) → (⟨S1700000x40, .f32⟩ : BufTy).Contents (Elt F)),
    binary main_v48 main_v47 main_v49 (mulf : (⟨S1700000x40, .f32⟩ : BufTy).Contents (Elt F) → (⟨S1700000x40, .f32⟩ : BufTy).Contents (Elt F) → (⟨S1700000x40, .f32⟩ : BufTy).Contents (Elt F)),
    nullary main_cst_8 (constant S_ .f32 0x00000000#32),
    unary main_cst_8 main_v50 (broadcastInDim S100000x40 ![] bcast_S_S100000x40 : (⟨S_, .f32⟩ : BufTy).Contents (Elt F) → (⟨S100000x40, .f32⟩ : BufTy).Contents (Elt F)),
    unary main_v16 main_v51 (broadcastInDim S1700000x1 ![0] bcast_S1700000_S1700000x1_0 : (⟨S1700000, .i32⟩ : BufTy).Contents (Elt F) → (⟨S1700000x1, .i32⟩ : BufTy).Contents (Elt F)),
    ternary main_v50 main_v51 main_v49 main_v52 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    nullary main_cst_9 (constant S_ .f32 0x3F666666#32),
    unary main_cst_9 main_v53 (broadcastInDim S100000x40 ![] bcast_S_S100000x40 : (⟨S_, .f32⟩ : BufTy).Contents (Elt F) → (⟨S100000x40, .f32⟩ : BufTy).Contents (Elt F)),
    binary main_v53 main_v52 main_v54 (mulf : (⟨S100000x40, .f32⟩ : BufTy).Contents (Elt F) → (⟨S100000x40, .f32⟩ : BufTy).Contents (Elt F) → (⟨S100000x40, .f32⟩ : BufTy).Contents (Elt F)),
    nullary main_cst_10 (constant S_ .f32 0x3DCCCCCD#32),
    unary main_cst_10 main_v55 (broadcastInDim S100000x40 ![] bcast_S_S100000x40 : (⟨S_, .f32⟩ : BufTy).Contents (Elt F) → (⟨S100000x40, .f32⟩ : BufTy).Contents (Elt F)),
    binary main_v55 main_v9 main_v56 (mulf : (⟨S100000x40, .f32⟩ : BufTy).Contents (Elt F) → (⟨S100000x40, .f32⟩ : BufTy).Contents (Elt F) → (⟨S100000x40, .f32⟩ : BufTy).Contents (Elt F)),
    binary main_v54 main_v56 main_v57 (addf : (⟨S100000x40, .f32⟩ : BufTy).Contents (Elt F) → (⟨S100000x40, .f32⟩ : BufTy).Contents (Elt F) → (⟨S100000x40, .f32⟩ : BufTy).Contents (Elt F)),
    unary main_v39 main_v58 (broadcastInDim S1700000x1 ![0] bcast_S1700000_S1700000x1_0 : (⟨S1700000, .f32⟩ : BufTy).Contents (Elt F) → (⟨S1700000x1, .f32⟩ : BufTy).Contents (Elt F)),
    nullary main_c_11 (constantI S_ 32 0#32),
    unary main_c_11 main_v59 (broadcastInDim S1700000 ![] bcast_S_S1700000 : (⟨S_, .i32⟩ : BufTy).Contents (Elt F) → (⟨S1700000, .i32⟩ : BufTy).Contents (Elt F)),
    binary main_v13 main_v59 main_v60 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v61 (broadcastInDim S1700000 ![] bcast_S_S1700000 : (⟨S_, .i32⟩ : BufTy).Contents (Elt F) → (⟨S1700000, .i32⟩ : BufTy).Contents (Elt F)),
    binary main_v13 main_v61 main_v62 (addi : (⟨S1700000, .i32⟩ : BufTy).Contents (Elt F) → (⟨S1700000, .i32⟩ : BufTy).Contents (Elt F) → (⟨S1700000, .i32⟩ : BufTy).Contents (Elt F)),
    ternary main_v60 main_v62 main_v13 main_v63 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v63 main_v64 (broadcastInDim S1700000x1 ![0] bcast_S1700000_S1700000x1_0 : (⟨S1700000, .i32⟩ : BufTy).Contents (Elt F) → (⟨S1700000x1, .i32⟩ : BufTy).Contents (Elt F)),
    binary main_v57 main_v64 main_v65 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v58 main_v66 (broadcastInDim S1700000x40 ![0, 1] bcast_S1700000x1_S1700000x40_0_1 : (⟨S1700000x1, .f32⟩ : BufTy).Contents (Elt F) → (⟨S1700000x40, .f32⟩ : BufTy).Contents (Elt F)),
    binary main_v66 main_v65 main_v67 (mulf : (⟨S1700000x40, .f32⟩ : BufTy).Contents (Elt F) → (⟨S1700000x40, .f32⟩ : BufTy).Contents (Elt F) → (⟨S1700000x40, .f32⟩ : BufTy).Contents (Elt F)),
    nullary main_cst_13 (constant S_ .f32 0x00000000#32),
    unary main_cst_13 main_v68 (broadcastInDim S100000x40 ![] bcast_S_S100000x40 : (⟨S_, .f32⟩ : BufTy).Contents (Elt F) → (⟨S100000x40, .f32⟩ : BufTy).Contents (Elt F)),
    unary main_v16 main_v69 (broadcastInDim S1700000x1 ![0] bcast_S1700000_S1700000x1_0 : (⟨S1700000, .i32⟩ : BufTy).Contents (Elt F) → (⟨S1700000x1, .i32⟩ : BufTy).Contents (Elt F)),
    ternary main_v68 main_v69 main_v67 main_v70 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    nullary main_cst_14 (constant S_ .f32 0x3F666666#32),
    unary main_cst_14 main_v71 (broadcastInDim S100000x40 ![] bcast_S_S100000x40 : (⟨S_, .f32⟩ : BufTy).Contents (Elt F) → (⟨S100000x40, .f32⟩ : BufTy).Contents (Elt F)),
    binary main_v71 main_v70 main_v72 (mulf : (⟨S100000x40, .f32⟩ : BufTy).Contents (Elt F) → (⟨S100000x40, .f32⟩ : BufTy).Contents (Elt F) → (⟨S100000x40, .f32⟩ : BufTy).Contents (Elt F)),
    nullary main_cst_15 (constant S_ .f32 0x3DCCCCCD#32),
    unary main_cst_15 main_v73 (broadcastInDim S100000x40 ![] bcast_S_S100000x40 : (⟨S_, .f32⟩ : BufTy).Contents (Elt F) → (⟨S100000x40, .f32⟩ : BufTy).Contents (Elt F)),
    binary main_v73 main_v9 main_v74 (mulf : (⟨S100000x40, .f32⟩ : BufTy).Contents (Elt F) → (⟨S100000x40, .f32⟩ : BufTy).Contents (Elt F) → (⟨S100000x40, .f32⟩ : BufTy).Contents (Elt F)),
    binary main_v72 main_v74 main_v75 (addf : (⟨S100000x40, .f32⟩ : BufTy).Contents (Elt F) → (⟨S100000x40, .f32⟩ : BufTy).Contents (Elt F) → (⟨S100000x40, .f32⟩ : BufTy).Contents (Elt F)),
    unary main_v39 main_v76 (broadcastInDim S1700000x1 ![0] bcast_S1700000_S1700000x1_0 : (⟨S1700000, .f32⟩ : BufTy).Contents (Elt F) → (⟨S1700000x1, .f32⟩ : BufTy).Contents (Elt F)),
    nullary main_c_16 (constantI S_ 32 0#32),
    unary main_c_16 main_v77 (broadcastInDim S1700000 ![] bcast_S_S1700000 : (⟨S_, .i32⟩ : BufTy).Contents (Elt F) → (⟨S1700000, .i32⟩ : BufTy).Contents (Elt F)),
    binary main_v13 main_v77 main_v78 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v79 (broadcastInDim S1700000 ![] bcast_S_S1700000 : (⟨S_, .i32⟩ : BufTy).Contents (Elt F) → (⟨S1700000, .i32⟩ : BufTy).Contents (Elt F)),
    binary main_v13 main_v79 main_v80 (addi : (⟨S1700000, .i32⟩ : BufTy).Contents (Elt F) → (⟨S1700000, .i32⟩ : BufTy).Contents (Elt F) → (⟨S1700000, .i32⟩ : BufTy).Contents (Elt F)),
    ternary main_v78 main_v80 main_v13 main_v81 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v81 main_v82 (broadcastInDim S1700000x1 ![0] bcast_S1700000_S1700000x1_0 : (⟨S1700000, .i32⟩ : BufTy).Contents (Elt F) → (⟨S1700000x1, .i32⟩ : BufTy).Contents (Elt F)),
    binary main_v75 main_v82 main_v83 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v76 main_v84 (broadcastInDim S1700000x40 ![0, 1] bcast_S1700000x1_S1700000x40_0_1 : (⟨S1700000x1, .f32⟩ : BufTy).Contents (Elt F) → (⟨S1700000x40, .f32⟩ : BufTy).Contents (Elt F)),
    binary main_v84 main_v83 main_v85 (mulf : (⟨S1700000x40, .f32⟩ : BufTy).Contents (Elt F) → (⟨S1700000x40, .f32⟩ : BufTy).Contents (Elt F) → (⟨S1700000x40, .f32⟩ : BufTy).Contents (Elt F)),
    nullary main_cst_18 (constant S_ .f32 0x00000000#32),
    unary main_cst_18 main_v86 (broadcastInDim S100000x40 ![] bcast_S_S100000x40 : (⟨S_, .f32⟩ : BufTy).Contents (Elt F) → (⟨S100000x40, .f32⟩ : BufTy).Contents (Elt F)),
    unary main_v16 main_v87 (broadcastInDim S1700000x1 ![0] bcast_S1700000_S1700000x1_0 : (⟨S1700000, .i32⟩ : BufTy).Contents (Elt F) → (⟨S1700000x1, .i32⟩ : BufTy).Contents (Elt F)),
    ternary main_v86 main_v87 main_v85 main_v88 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    nullary main_cst_19 (constant S_ .f32 0x3F666666#32),
    unary main_cst_19 main_v89 (broadcastInDim S100000x40 ![] bcast_S_S100000x40 : (⟨S_, .f32⟩ : BufTy).Contents (Elt F) → (⟨S100000x40, .f32⟩ : BufTy).Contents (Elt F)),
    binary main_v89 main_v88 main_v90 (mulf : (⟨S100000x40, .f32⟩ : BufTy).Contents (Elt F) → (⟨S100000x40, .f32⟩ : BufTy).Contents (Elt F) → (⟨S100000x40, .f32⟩ : BufTy).Contents (Elt F)),
    nullary main_cst_20 (constant S_ .f32 0x3DCCCCCD#32),
    unary main_cst_20 main_v91 (broadcastInDim S100000x40 ![] bcast_S_S100000x40 : (⟨S_, .f32⟩ : BufTy).Contents (Elt F) → (⟨S100000x40, .f32⟩ : BufTy).Contents (Elt F)),
    binary main_v91 main_v9 main_v92 (mulf : (⟨S100000x40, .f32⟩ : BufTy).Contents (Elt F) → (⟨S100000x40, .f32⟩ : BufTy).Contents (Elt F) → (⟨S100000x40, .f32⟩ : BufTy).Contents (Elt F)),
    binary main_v90 main_v92 main_v93 (addf : (⟨S100000x40, .f32⟩ : BufTy).Contents (Elt F) → (⟨S100000x40, .f32⟩ : BufTy).Contents (Elt F) → (⟨S100000x40, .f32⟩ : BufTy).Contents (Elt F)),
    unary main_v39 main_v94 (broadcastInDim S1700000x1 ![0] bcast_S1700000_S1700000x1_0 : (⟨S1700000, .f32⟩ : BufTy).Contents (Elt F) → (⟨S1700000x1, .f32⟩ : BufTy).Contents (Elt F)),
    nullary main_c_21 (constantI S_ 32 0#32),
    unary main_c_21 main_v95 (broadcastInDim S1700000 ![] bcast_S_S1700000 : (⟨S_, .i32⟩ : BufTy).Contents (Elt F) → (⟨S1700000, .i32⟩ : BufTy).Contents (Elt F)),
    binary main_v13 main_v95 main_v96 (cmpi .slt : (⟨S1700000, .i32⟩ : BufTy).Contents (Elt F) → (⟨S1700000, .i32⟩ : BufTy).Contents (Elt F) → (⟨S1700000, .i1⟩ : BufTy).Contents (Elt F)),
    nullary main_c_22 (constantI S_ 32 100000#32),
    unary main_c_22 main_v97 (broadcastInDim S1700000 ![] bcast_S_S1700000 : (⟨S_, .i32⟩ : BufTy).Contents (Elt F) → (⟨S1700000, .i32⟩ : BufTy).Contents (Elt F)),
    binary main_v13 main_v97 main_v98 (addi : (⟨S1700000, .i32⟩ : BufTy).Contents (Elt F) → (⟨S1700000, .i32⟩ : BufTy).Contents (Elt F) → (⟨S1700000, .i32⟩ : BufTy).Contents (Elt F)),
    ternary main_v96 main_v98 main_v13 main_v99 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v99 main_v100 (broadcastInDim S1700000x1 ![0] bcast_S1700000_S1700000x1_0 : (⟨S1700000, .i32⟩ : BufTy).Contents (Elt F) → (⟨S1700000x1, .i32⟩ : BufTy).Contents (Elt F)),
    binary main_v93 main_v100 main_v101 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v94 main_v102 (broadcastInDim S1700000x40 ![0, 1] bcast_S1700000x1_S1700000x40_0_1 : (⟨S1700000x1, .f32⟩ : BufTy).Contents (Elt F) → (⟨S1700000x40, .f32⟩ : BufTy).Contents (Elt F)),
    binary main_v102 main_v101 main_v103 (mulf : (⟨S1700000x40, .f32⟩ : BufTy).Contents (Elt F) → (⟨S1700000x40, .f32⟩ : BufTy).Contents (Elt F) → (⟨S1700000x40, .f32⟩ : BufTy).Contents (Elt F)),
    nullary main_cst_23 (constant S_ .f32 0x00000000#32),
    unary main_cst_23 main_v104 (broadcastInDim S100000x40 ![] bcast_S_S100000x40 : (⟨S_, .f32⟩ : BufTy).Contents (Elt F) → (⟨S100000x40, .f32⟩ : BufTy).Contents (Elt F)),
    unary main_v16 main_v105 (broadcastInDim S1700000x1 ![0] bcast_S1700000_S1700000x1_0 : (⟨S1700000, .i32⟩ : BufTy).Contents (Elt F) → (⟨S1700000x1, .i32⟩ : BufTy).Contents (Elt F)),
    ternary main_v104 main_v105 main_v103 main_v106 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    nullary main_cst_24 (constant S_ .f32 0x3F666666#32),
    unary main_cst_24 main_v107 (broadcastInDim S100000x40 ![] bcast_S_S100000x40 : (⟨S_, .f32⟩ : BufTy).Contents (Elt F) → (⟨S100000x40, .f32⟩ : BufTy).Contents (Elt F)),
    binary main_v107 main_v106 main_v108 (mulf : (⟨S100000x40, .f32⟩ : BufTy).Contents (Elt F) → (⟨S100000x40, .f32⟩ : BufTy).Contents (Elt F) → (⟨S100000x40, .f32⟩ : BufTy).Contents (Elt F)),
    nullary main_cst_25 (constant S_ .f32 0x3DCCCCCD#32),
    unary main_cst_25 main_v109 (broadcastInDim S100000x40 ![] bcast_S_S100000x40 : (⟨S_, .f32⟩ : BufTy).Contents (Elt F) → (⟨S100000x40, .f32⟩ : BufTy).Contents (Elt F)),
    binary main_v109 main_v9 main_v110 (mulf : (⟨S100000x40, .f32⟩ : BufTy).Contents (Elt F) → (⟨S100000x40, .f32⟩ : BufTy).Contents (Elt F) → (⟨S100000x40, .f32⟩ : BufTy).Contents (Elt F)),
    binary main_v108 main_v110 main_v111 (addf : (⟨S100000x40, .f32⟩ : BufTy).Contents (Elt F) → (⟨S100000x40, .f32⟩ : BufTy).Contents (Elt F) → (⟨S100000x40, .f32⟩ : BufTy).Contents (Elt F)),
    unary main_v39 main_v112 (broadcastInDim S1700000x1 ![0] bcast_S1700000_S1700000x1_0 : (⟨S1700000, .f32⟩ : BufTy).Contents (Elt F) → (⟨S1700000x1, .f32⟩ : BufTy).Contents (Elt F)),
    nullary main_c_26 (constantI S_ 32 0#32),
    unary main_c_26 main_v113 (broadcastInDim S1700000 ![] bcast_S_S1700000 : (⟨S_, .i32⟩ : BufTy).Contents (Elt F) → (⟨S1700000, .i32⟩ : BufTy).Contents (Elt F)),
    binary main_v13 main_v113 main_v114 (cmpi .slt : (⟨S1700000, .i32⟩ : BufTy).Contents (Elt F) → (⟨S1700000, .i32⟩ : BufTy).Contents (Elt F) → (⟨S1700000, .i1⟩ : BufTy).Contents (Elt F)),
    nullary main_c_27 (constantI S_ 32 100000#32),
    unary main_c_27 main_v115 (broadcastInDim S1700000 ![] bcast_S_S1700000 : (⟨S_, .i32⟩ : BufTy).Contents (Elt F) → (⟨S1700000, .i32⟩ : BufTy).Contents (Elt F)),
    binary main_v13 main_v115 main_v116 (addi : (⟨S1700000, .i32⟩ : BufTy).Contents (Elt F) → (⟨S1700000, .i32⟩ : BufTy).Contents (Elt F) → (⟨S1700000, .i32⟩ : BufTy).Contents (Elt F)),
    ternary main_v114 main_v116 main_v13 main_v117 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v117 main_v118 (broadcastInDim S1700000x1 ![0] bcast_S1700000_S1700000x1_0 : (⟨S1700000, .i32⟩ : BufTy).Contents (Elt F) → (⟨S1700000x1, .i32⟩ : BufTy).Contents (Elt F)),
    binary main_v111 main_v118 main_v119 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v112 main_v120 (broadcastInDim S1700000x40 ![0, 1] bcast_S1700000x1_S1700000x40_0_1 : (⟨S1700000x1, .f32⟩ : BufTy).Contents (Elt F) → (⟨S1700000x40, .f32⟩ : BufTy).Contents (Elt F)),
    binary main_v120 main_v119 main_v121 (mulf : (⟨S1700000x40, .f32⟩ : BufTy).Contents (Elt F) → (⟨S1700000x40, .f32⟩ : BufTy).Contents (Elt F) → (⟨S1700000x40, .f32⟩ : BufTy).Contents (Elt F)),
    nullary main_cst_28 (constant S_ .f32 0x00000000#32),
    unary main_cst_28 main_v122 (broadcastInDim S100000x40 ![] bcast_S_S100000x40 : (⟨S_, .f32⟩ : BufTy).Contents (Elt F) → (⟨S100000x40, .f32⟩ : BufTy).Contents (Elt F)),
    unary main_v16 main_v123 (broadcastInDim S1700000x1 ![0] bcast_S1700000_S1700000x1_0 : (⟨S1700000, .i32⟩ : BufTy).Contents (Elt F) → (⟨S1700000x1, .i32⟩ : BufTy).Contents (Elt F)),
    ternary main_v122 main_v123 main_v121 main_v124 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    nullary main_cst_29 (constant S_ .f32 0x3F666666#32),
    unary main_cst_29 main_v125 (broadcastInDim S100000x40 ![] bcast_S_S100000x40 : (⟨S_, .f32⟩ : BufTy).Contents (Elt F) → (⟨S100000x40, .f32⟩ : BufTy).Contents (Elt F)),
    binary main_v125 main_v124 main_v126 (mulf : (⟨S100000x40, .f32⟩ : BufTy).Contents (Elt F) → (⟨S100000x40, .f32⟩ : BufTy).Contents (Elt F) → (⟨S100000x40, .f32⟩ : BufTy).Contents (Elt F)),
    nullary main_cst_30 (constant S_ .f32 0x3DCCCCCD#32),
    unary main_cst_30 main_v127 (broadcastInDim S100000x40 ![] bcast_S_S100000x40 : (⟨S_, .f32⟩ : BufTy).Contents (Elt F) → (⟨S100000x40, .f32⟩ : BufTy).Contents (Elt F)),
    binary main_v127 main_v9 main_v128 (mulf : (⟨S100000x40, .f32⟩ : BufTy).Contents (Elt F) → (⟨S100000x40, .f32⟩ : BufTy).Contents (Elt F) → (⟨S100000x40, .f32⟩ : BufTy).Contents (Elt F)),
    binary main_v126 main_v128 main_v129 (addf : (⟨S100000x40, .f32⟩ : BufTy).Contents (Elt F) → (⟨S100000x40, .f32⟩ : BufTy).Contents (Elt F) → (⟨S100000x40, .f32⟩ : BufTy).Contents (Elt F)),
    unary main_v39 main_v130 (broadcastInDim S1700000x1 ![0] bcast_S1700000_S1700000x1_0 : (⟨S1700000, .f32⟩ : BufTy).Contents (Elt F) → (⟨S1700000x1, .f32⟩ : BufTy).Contents (Elt F)),
    nullary main_c_31 (constantI S_ 32 0#32),
    unary main_c_31 main_v131 (broadcastInDim S1700000 ![] bcast_S_S1700000 : (⟨S_, .i32⟩ : BufTy).Contents (Elt F) → (⟨S1700000, .i32⟩ : BufTy).Contents (Elt F)),
    binary main_v13 main_v131 main_v132 (cmpi .slt : (⟨S1700000, .i32⟩ : BufTy).Contents (Elt F) → (⟨S1700000, .i32⟩ : BufTy).Contents (Elt F) → (⟨S1700000, .i1⟩ : BufTy).Contents (Elt F)),
    nullary main_c_32 (constantI S_ 32 100000#32),
    unary main_c_32 main_v133 (broadcastInDim S1700000 ![] bcast_S_S1700000 : (⟨S_, .i32⟩ : BufTy).Contents (Elt F) → (⟨S1700000, .i32⟩ : BufTy).Contents (Elt F)),
    binary main_v13 main_v133 main_v134 (addi : (⟨S1700000, .i32⟩ : BufTy).Contents (Elt F) → (⟨S1700000, .i32⟩ : BufTy).Contents (Elt F) → (⟨S1700000, .i32⟩ : BufTy).Contents (Elt F)),
    ternary main_v132 main_v134 main_v13 main_v135 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v135 main_v136 (broadcastInDim S1700000x1 ![0] bcast_S1700000_S1700000x1_0 : (⟨S1700000, .i32⟩ : BufTy).Contents (Elt F) → (⟨S1700000x1, .i32⟩ : BufTy).Contents (Elt F)),
    binary main_v129 main_v136 main_v137 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v130 main_v138 (broadcastInDim S1700000x40 ![0, 1] bcast_S1700000x1_S1700000x40_0_1 : (⟨S1700000x1, .f32⟩ : BufTy).Contents (Elt F) → (⟨S1700000x40, .f32⟩ : BufTy).Contents (Elt F)),
    binary main_v138 main_v137 main_v139 (mulf : (⟨S1700000x40, .f32⟩ : BufTy).Contents (Elt F) → (⟨S1700000x40, .f32⟩ : BufTy).Contents (Elt F) → (⟨S1700000x40, .f32⟩ : BufTy).Contents (Elt F)),
    nullary main_cst_33 (constant S_ .f32 0x00000000#32),
    unary main_cst_33 main_v140 (broadcastInDim S100000x40 ![] bcast_S_S100000x40 : (⟨S_, .f32⟩ : BufTy).Contents (Elt F) → (⟨S100000x40, .f32⟩ : BufTy).Contents (Elt F)),
    unary main_v16 main_v141 (broadcastInDim S1700000x1 ![0] bcast_S1700000_S1700000x1_0 : (⟨S1700000, .i32⟩ : BufTy).Contents (Elt F) → (⟨S1700000x1, .i32⟩ : BufTy).Contents (Elt F)),
    ternary main_v140 main_v141 main_v139 main_v142 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    nullary main_cst_34 (constant S_ .f32 0x3F666666#32),
    unary main_cst_34 main_v143 (broadcastInDim S100000x40 ![] bcast_S_S100000x40 : (⟨S_, .f32⟩ : BufTy).Contents (Elt F) → (⟨S100000x40, .f32⟩ : BufTy).Contents (Elt F)),
    binary main_v143 main_v142 main_v144 (mulf : (⟨S100000x40, .f32⟩ : BufTy).Contents (Elt F) → (⟨S100000x40, .f32⟩ : BufTy).Contents (Elt F) → (⟨S100000x40, .f32⟩ : BufTy).Contents (Elt F)),
    nullary main_cst_35 (constant S_ .f32 0x3DCCCCCD#32),
    unary main_cst_35 main_v145 (broadcastInDim S100000x40 ![] bcast_S_S100000x40 : (⟨S_, .f32⟩ : BufTy).Contents (Elt F) → (⟨S100000x40, .f32⟩ : BufTy).Contents (Elt F)),
    binary main_v145 main_v9 main_v146 (mulf : (⟨S100000x40, .f32⟩ : BufTy).Contents (Elt F) → (⟨S100000x40, .f32⟩ : BufTy).Contents (Elt F) → (⟨S100000x40, .f32⟩ : BufTy).Contents (Elt F)),
    binary main_v144 main_v146 main_v147 (addf : (⟨S100000x40, .f32⟩ : BufTy).Contents (Elt F) → (⟨S100000x40, .f32⟩ : BufTy).Contents (Elt F) → (⟨S100000x40, .f32⟩ : BufTy).Contents (Elt F)),
    unary main_v39 main_v148 (broadcastInDim S1700000x1 ![0] bcast_S1700000_S1700000x1_0 : (⟨S1700000, .f32⟩ : BufTy).Contents (Elt F) → (⟨S1700000x1, .f32⟩ : BufTy).Contents (Elt F)),
    nullary main_c_36 (constantI S_ 32 0#32),
    unary main_c_36 main_v149 (broadcastInDim S1700000 ![] bcast_S_S1700000 : (⟨S_, .i32⟩ : BufTy).Contents (Elt F) → (⟨S1700000, .i32⟩ : BufTy).Contents (Elt F)),
    binary main_v13 main_v149 main_v150 (cmpi .slt : (⟨S1700000, .i32⟩ : BufTy).Contents (Elt F) → (⟨S1700000, .i32⟩ : BufTy).Contents (Elt F) → (⟨S1700000, .i1⟩ : BufTy).Contents (Elt F)),
    nullary main_c_37 (constantI S_ 32 100000#32),
    unary main_c_37 main_v151 (broadcastInDim S1700000 ![] bcast_S_S1700000 : (⟨S_, .i32⟩ : BufTy).Contents (Elt F) → (⟨S1700000, .i32⟩ : BufTy).Contents (Elt F)),
    binary main_v13 main_v151 main_v152 (addi : (⟨S1700000, .i32⟩ : BufTy).Contents (Elt F) → (⟨S1700000, .i32⟩ : BufTy).Contents (Elt F) → (⟨S1700000, .i32⟩ : BufTy).Contents (Elt F)),
    ternary main_v150 main_v152 main_v13 main_v153 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v153 main_v154 (broadcastInDim S1700000x1 ![0] bcast_S1700000_S1700000x1_0 : (⟨S1700000, .i32⟩ : BufTy).Contents (Elt F) → (⟨S1700000x1, .i32⟩ : BufTy).Contents (Elt F)),
    binary main_v147 main_v154 main_v155 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v148 main_v156 (broadcastInDim S1700000x40 ![0, 1] bcast_S1700000x1_S1700000x40_0_1 : (⟨S1700000x1, .f32⟩ : BufTy).Contents (Elt F) → (⟨S1700000x40, .f32⟩ : BufTy).Contents (Elt F)),
    binary main_v156 main_v155 main_v157 (mulf : (⟨S1700000x40, .f32⟩ : BufTy).Contents (Elt F) → (⟨S1700000x40, .f32⟩ : BufTy).Contents (Elt F) → (⟨S1700000x40, .f32⟩ : BufTy).Contents (Elt F)),
    nullary main_cst_38 (constant S_ .f32 0x00000000#32),
    unary main_cst_38 main_v158 (broadcastInDim S100000x40 ![] bcast_S_S100000x40 : (⟨S_, .f32⟩ : BufTy).Contents (Elt F) → (⟨S100000x40, .f32⟩ : BufTy).Contents (Elt F)),
    unary main_v16 main_v159 (broadcastInDim S1700000x1 ![0] bcast_S1700000_S1700000x1_0 : (⟨S1700000, .i32⟩ : BufTy).Contents (Elt F) → (⟨S1700000x1, .i32⟩ : BufTy).Contents (Elt F)),
    ternary main_v158 main_v159 main_v157 main_v160 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    nullary main_cst_39 (constant S_ .f32 0x3F666666#32),
    unary main_cst_39 main_v161 (broadcastInDim S100000x40 ![] bcast_S_S100000x40 : (⟨S_, .f32⟩ : BufTy).Contents (Elt F) → (⟨S100000x40, .f32⟩ : BufTy).Contents (Elt F)),
    binary main_v161 main_v160 main_v162 (mulf : (⟨S100000x40, .f32⟩ : BufTy).Contents (Elt F) → (⟨S100000x40, .f32⟩ : BufTy).Contents (Elt F) → (⟨S100000x40, .f32⟩ : BufTy).Contents (Elt F)),
    nullary main_cst_40 (constant S_ .f32 0x3DCCCCCD#32),
    unary main_cst_40 main_v163 (broadcastInDim S100000x40 ![] bcast_S_S100000x40 : (⟨S_, .f32⟩ : BufTy).Contents (Elt F) → (⟨S100000x40, .f32⟩ : BufTy).Contents (Elt F)),
    binary main_v163 main_v9 main_v164 (mulf : (⟨S100000x40, .f32⟩ : BufTy).Contents (Elt F) → (⟨S100000x40, .f32⟩ : BufTy).Contents (Elt F) → (⟨S100000x40, .f32⟩ : BufTy).Contents (Elt F)),
    binary main_v162 main_v164 main_v165 (addf : (⟨S100000x40, .f32⟩ : BufTy).Contents (Elt F) → (⟨S100000x40, .f32⟩ : BufTy).Contents (Elt F) → (⟨S100000x40, .f32⟩ : BufTy).Contents (Elt F)),
    unary main_v39 main_v166 (broadcastInDim S1700000x1 ![0] bcast_S1700000_S1700000x1_0 : (⟨S1700000, .f32⟩ : BufTy).Contents (Elt F) → (⟨S1700000x1, .f32⟩ : BufTy).Contents (Elt F)),
    nullary main_c_41 (constantI S_ 32 0#32),
    unary main_c_41 main_v167 (broadcastInDim S1700000 ![] bcast_S_S1700000 : (⟨S_, .i32⟩ : BufTy).Contents (Elt F) → (⟨S1700000, .i32⟩ : BufTy).Contents (Elt F)),
    binary main_v13 main_v167 main_v168 (cmpi .slt : (⟨S1700000, .i32⟩ : BufTy).Contents (Elt F) → (⟨S1700000, .i32⟩ : BufTy).Contents (Elt F) → (⟨S1700000, .i1⟩ : BufTy).Contents (Elt F)),
    nullary main_c_42 (constantI S_ 32 100000#32),
    unary main_c_42 main_v169 (broadcastInDim S1700000 ![] bcast_S_S1700000 : (⟨S_, .i32⟩ : BufTy).Contents (Elt F) → (⟨S1700000, .i32⟩ : BufTy).Contents (Elt F)),
    binary main_v13 main_v169 main_v170 (addi : (⟨S1700000, .i32⟩ : BufTy).Contents (Elt F) → (⟨S1700000, .i32⟩ : BufTy).Contents (Elt F) → (⟨S1700000, .i32⟩ : BufTy).Contents (Elt F)),
    ternary main_v168 main_v170 main_v13 main_v171 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v171 main_v172 (broadcastInDim S1700000x1 ![0] bcast_S1700000_S1700000x1_0 : (⟨S1700000, .i32⟩ : BufTy).Contents (Elt F) → (⟨S1700000x1, .i32⟩ : BufTy).Contents (Elt F)),
    binary main_v165 main_v172 main_v173 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v166 main_v174 (broadcastInDim S1700000x40 ![0, 1] bcast_S1700000x1_S1700000x40_0_1 : (⟨S1700000x1, .f32⟩ : BufTy).Contents (Elt F) → (⟨S1700000x40, .f32⟩ : BufTy).Contents (Elt F)),
    binary main_v174 main_v173 main_v175 (mulf : (⟨S1700000x40, .f32⟩ : BufTy).Contents (Elt F) → (⟨S1700000x40, .f32⟩ : BufTy).Contents (Elt F) → (⟨S1700000x40, .f32⟩ : BufTy).Contents (Elt F)),
    nullary main_cst_43 (constant S_ .f32 0x00000000#32),
    unary main_cst_43 main_v176 (broadcastInDim S100000x40 ![] bcast_S_S100000x40 : (⟨S_, .f32⟩ : BufTy).Contents (Elt F) → (⟨S100000x40, .f32⟩ : BufTy).Contents (Elt F)),
    unary main_v16 main_v177 (broadcastInDim S1700000x1 ![0] bcast_S1700000_S1700000x1_0 : (⟨S1700000, .i32⟩ : BufTy).Contents (Elt F) → (⟨S1700000x1, .i32⟩ : BufTy).Contents (Elt F)),
    ternary main_v176 main_v177 main_v175 main_v178 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    nullary main_cst_44 (constant S_ .f32 0x3F666666#32),
    unary main_cst_44 main_v179 (broadcastInDim S100000x40 ![] bcast_S_S100000x40 : (⟨S_, .f32⟩ : BufTy).Contents (Elt F) → (⟨S100000x40, .f32⟩ : BufTy).Contents (Elt F)),
    binary main_v179 main_v178 main_v180 (mulf : (⟨S100000x40, .f32⟩ : BufTy).Contents (Elt F) → (⟨S100000x40, .f32⟩ : BufTy).Contents (Elt F) → (⟨S100000x40, .f32⟩ : BufTy).Contents (Elt F)),
    nullary main_cst_45 (constant S_ .f32 0x3DCCCCCD#32),
    unary main_cst_45 main_v181 (broadcastInDim S100000x40 ![] bcast_S_S100000x40 : (⟨S_, .f32⟩ : BufTy).Contents (Elt F) → (⟨S100000x40, .f32⟩ : BufTy).Contents (Elt F)),
    binary main_v181 main_v9 main_v182 (mulf : (⟨S100000x40, .f32⟩ : BufTy).Contents (Elt F) → (⟨S100000x40, .f32⟩ : BufTy).Contents (Elt F) → (⟨S100000x40, .f32⟩ : BufTy).Contents (Elt F)),
    binary main_v180 main_v182 main_v183 (addf : (⟨S100000x40, .f32⟩ : BufTy).Contents (Elt F) → (⟨S100000x40, .f32⟩ : BufTy).Contents (Elt F) → (⟨S100000x40, .f32⟩ : BufTy).Contents (Elt F)),
    unary main_v39 main_v184 (broadcastInDim S1700000x1 ![0] bcast_S1700000_S1700000x1_0 : (⟨S1700000, .f32⟩ : BufTy).Contents (Elt F) → (⟨S1700000x1, .f32⟩ : BufTy).Contents (Elt F)),
    nullary main_c_46 (constantI S_ 32 0#32),
    unary main_c_46 main_v185 (broadcastInDim S1700000 ![] bcast_S_S1700000 : (⟨S_, .i32⟩ : BufTy).Contents (Elt F) → (⟨S1700000, .i32⟩ : BufTy).Contents (Elt F)),
    binary main_v13 main_v185 main_v186 (cmpi .slt : (⟨S1700000, .i32⟩ : BufTy).Contents (Elt F) → (⟨S1700000, .i32⟩ : BufTy).Contents (Elt F) → (⟨S1700000, .i1⟩ : BufTy).Contents (Elt F)),
    nullary main_c_47 (constantI S_ 32 100000#32),
    unary main_c_47 main_v187 (broadcastInDim S1700000 ![] bcast_S_S1700000 : (⟨S_, .i32⟩ : BufTy).Contents (Elt F) → (⟨S1700000, .i32⟩ : BufTy).Contents (Elt F)),
    binary main_v13 main_v187 main_v188 (addi : (⟨S1700000, .i32⟩ : BufTy).Contents (Elt F) → (⟨S1700000, .i32⟩ : BufTy).Contents (Elt F) → (⟨S1700000, .i32⟩ : BufTy).Contents (Elt F)),
    ternary main_v186 main_v188 main_v13 main_v189 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v189 main_v190 (broadcastInDim S1700000x1 ![0] bcast_S1700000_S1700000x1_0 : (⟨S1700000, .i32⟩ : BufTy).Contents (Elt F) → (⟨S1700000x1, .i32⟩ : BufTy).Contents (Elt F)),
    binary main_v183 main_v190 main_v191 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v184 main_v192 (broadcastInDim S1700000x40 ![0, 1] bcast_S1700000x1_S1700000x40_0_1 : (⟨S1700000x1, .f32⟩ : BufTy).Contents (Elt F) → (⟨S1700000x40, .f32⟩ : BufTy).Contents (Elt F)),
    binary main_v192 main_v191 main_v193 (mulf : (⟨S1700000x40, .f32⟩ : BufTy).Contents (Elt F) → (⟨S1700000x40, .f32⟩ : BufTy).Contents (Elt F) → (⟨S1700000x40, .f32⟩ : BufTy).Contents (Elt F)),
    nullary main_cst_48 (constant S_ .f32 0x00000000#32),
    unary main_cst_48 main_v194 (broadcastInDim S100000x40 ![] bcast_S_S100000x40 : (⟨S_, .f32⟩ : BufTy).Contents (Elt F) → (⟨S100000x40, .f32⟩ : BufTy).Contents (Elt F)),
    unary main_v16 main_v195 (broadcastInDim S1700000x1 ![0] bcast_S1700000_S1700000x1_0 : (⟨S1700000, .i32⟩ : BufTy).Contents (Elt F) → (⟨S1700000x1, .i32⟩ : BufTy).Contents (Elt F)),
    ternary main_v194 main_v195 main_v193 main_v196 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    nullary main_cst_49 (constant S_ .f32 0x3F666666#32),
    unary main_cst_49 main_v197 (broadcastInDim S100000x40 ![] bcast_S_S100000x40 : (⟨S_, .f32⟩ : BufTy).Contents (Elt F) → (⟨S100000x40, .f32⟩ : BufTy).Contents (Elt F)),
    binary main_v197 main_v196 main_v198 (mulf : (⟨S100000x40, .f32⟩ : BufTy).Contents (Elt F) → (⟨S100000x40, .f32⟩ : BufTy).Contents (Elt F) → (⟨S100000x40, .f32⟩ : BufTy).Contents (Elt F)),
    nullary main_cst_50 (constant S_ .f32 0x3DCCCCCD#32),
    unary main_cst_50 main_v199 (broadcastInDim S100000x40 ![] bcast_S_S100000x40 : (⟨S_, .f32⟩ : BufTy).Contents (Elt F) → (⟨S100000x40, .f32⟩ : BufTy).Contents (Elt F)),
    binary main_v199 main_v9 main_v200 (mulf : (⟨S100000x40, .f32⟩ : BufTy).Contents (Elt F) → (⟨S100000x40, .f32⟩ : BufTy).Contents (Elt F) → (⟨S100000x40, .f32⟩ : BufTy).Contents (Elt F)),
    binary main_v198 main_v200 main_v201 (addf : (⟨S100000x40, .f32⟩ : BufTy).Contents (Elt F) → (⟨S100000x40, .f32⟩ : BufTy).Contents (Elt F) → (⟨S100000x40, .f32⟩ : BufTy).Contents (Elt F)),
    unary main_v39 main_v202 (broadcastInDim S1700000x1 ![0] bcast_S1700000_S1700000x1_0 : (⟨S1700000, .f32⟩ : BufTy).Contents (Elt F) → (⟨S1700000x1, .f32⟩ : BufTy).Contents (Elt F)),
    nullary main_c_51 (constantI S_ 32 0#32),
    unary main_c_51 main_v203 (broadcastInDim S1700000 ![] bcast_S_S1700000 : (⟨S_, .i32⟩ : BufTy).Contents (Elt F) → (⟨S1700000, .i32⟩ : BufTy).Contents (Elt F)),
    binary main_v13 main_v203 main_v204 (cmpi .slt : (⟨S1700000, .i32⟩ : BufTy).Contents (Elt F) → (⟨S1700000, .i32⟩ : BufTy).Contents (Elt F) → (⟨S1700000, .i1⟩ : BufTy).Contents (Elt F)),
    nullary main_c_52 (constantI S_ 32 100000#32),
    unary main_c_52 main_v205 (broadcastInDim S1700000 ![] bcast_S_S1700000 : (⟨S_, .i32⟩ : BufTy).Contents (Elt F) → (⟨S1700000, .i32⟩ : BufTy).Contents (Elt F)),
    binary main_v13 main_v205 main_v206 (addi : (⟨S1700000, .i32⟩ : BufTy).Contents (Elt F) → (⟨S1700000, .i32⟩ : BufTy).Contents (Elt F) → (⟨S1700000, .i32⟩ : BufTy).Contents (Elt F)),
    ternary main_v204 main_v206 main_v13 main_v207 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v207 main_v208 (broadcastInDim S1700000x1 ![0] bcast_S1700000_S1700000x1_0 : (⟨S1700000, .i32⟩ : BufTy).Contents (Elt F) → (⟨S1700000x1, .i32⟩ : BufTy).Contents (Elt F)),
    binary main_v201 main_v208 main_v209 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v202 main_v210 (broadcastInDim S1700000x40 ![0, 1] bcast_S1700000x1_S1700000x40_0_1 : (⟨S1700000x1, .f32⟩ : BufTy).Contents (Elt F) → (⟨S1700000x40, .f32⟩ : BufTy).Contents (Elt F)),
    binary main_v210 main_v209 main_v211 (mulf : (⟨S1700000x40, .f32⟩ : BufTy).Contents (Elt F) → (⟨S1700000x40, .f32⟩ : BufTy).Contents (Elt F) → (⟨S1700000x40, .f32⟩ : BufTy).Contents (Elt F)),
    nullary main_cst_53 (constant S_ .f32 0x00000000#32),
    unary main_cst_53 main_v212 (broadcastInDim S100000x40 ![] bcast_S_S100000x40 : (⟨S_, .f32⟩ : BufTy).Contents (Elt F) → (⟨S100000x40, .f32⟩ : BufTy).Contents (Elt F)),
    unary main_v16 main_v213 (broadcastInDim S1700000x1 ![0] bcast_S1700000_S1700000x1_0 : (⟨S1700000, .i32⟩ : BufTy).Contents (Elt F) → (⟨S1700000x1, .i32⟩ : BufTy).Contents (Elt F)),
    ternary main_v212 main_v213 main_v211 main_v214 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    nullary main_cst_54 (constant S_ .f32 0x3F666666#32),
    unary main_cst_54 main_v215 (broadcastInDim S100000x40 ![] bcast_S_S100000x40 : (⟨S_, .f32⟩ : BufTy).Contents (Elt F) → (⟨S100000x40, .f32⟩ : BufTy).Contents (Elt F)),
    binary main_v215 main_v214 main_v216 (mulf : (⟨S100000x40, .f32⟩ : BufTy).Contents (Elt F) → (⟨S100000x40, .f32⟩ : BufTy).Contents (Elt F) → (⟨S100000x40, .f32⟩ : BufTy).Contents (Elt F)),
    nullary main_cst_55 (constant S_ .f32 0x3DCCCCCD#32),
    unary main_cst_55 main_v217 (broadcastInDim S100000x40 ![] bcast_S_S100000x40 : (⟨S_, .f32⟩ : BufTy).Contents (Elt F) → (⟨S100000x40, .f32⟩ : BufTy).Contents (Elt F)),
    binary main_v217 main_v9 main_v218 (mulf : (⟨S100000x40, .f32⟩ : BufTy).Contents (Elt F) → (⟨S100000x40, .f32⟩ : BufTy).Contents (Elt F) → (⟨S100000x40, .f32⟩ : BufTy).Contents (Elt F)),
    binary main_v216 main_v218 main_v219 (addf : (⟨S100000x40, .f32⟩ : BufTy).Contents (Elt F) → (⟨S100000x40, .f32⟩ : BufTy).Contents (Elt F) → (⟨S100000x40, .f32⟩ : BufTy).Contents (Elt F)) ]

/-- The program's operations. -/
abbrev ops : List (HloOp τ sig (Elt F)) := opsMlp ++ opsTail

set_option maxRecDepth 65536 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem opsMlp_sub : (opsMlp : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
set_option maxRecDepth 65536 in
theorem opsTail_sub : (opsTail : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem ops_sub : (ops : List (HloOp τ sig (Elt F))).Forall fun op => op.bufs ⊆ tcRefs τ sig :=
  List.forall_append.mpr ⟨opsMlp_sub, opsTail_sub⟩

/-- The perceptron in the host's spelling: two matrix products, each followed by its bias laid along the rows and a
    maximum with zero. -/
def hidden (x0 : (⟨S100000x512, .f32⟩ : BufTy).Contents (Elt F)) (x2 : (⟨S512x256, .f32⟩ : BufTy).Contents (Elt F))
    (x3 : (⟨S256, .f32⟩ : BufTy).Contents (Elt F)) (x4 : (⟨S256x40, .f32⟩ : BufTy).Contents (Elt F))
    (x5 : (⟨S40, .f32⟩ : BufTy).Contents (Elt F)) : (⟨S100000x40, .f32⟩ : BufTy).Contents (Elt F) :=
  maximumf (addf (Host.dotGeneral dot_S100000x256_S256x40_S100000x40_1_0_0_1_n_n none
      (maximumf (addf (Host.dotGeneral dot_S100000x512_S512x256_S100000x256_1_0_0_1_n_n none x0 x2)
          (broadcastInDim S100000x256 ![0, 1] bcast_S1x256_S100000x256_0_1 (broadcastInDim S1x256 ![1] bcast_S256_S1x256_1 x3)))
        (broadcastInDim S100000x256 ![] bcast_S_S100000x256 (constant S_ .f32 0x00000000#32))) x4)
      (broadcastInDim S100000x40 ![0, 1] bcast_S1x40_S100000x40_0_1 (broadcastInDim S1x40 ![1] bcast_S40_S1x40_1 x5)))
    (broadcastInDim S100000x40 ![] bcast_S_S100000x40 (constant S_ .f32 0x00000000#32))

/-- After the perceptron's lines its result buffer holds `hidden` of the arguments. -/
theorem after_mlp_v9 (V : Valuation τ sig (Elt F)) :
    after opsMlp V (Proc.devRef .tc main_v9)
      = hidden (V (Proc.devRef .tc main_arg0)) (V (Proc.devRef .tc main_arg2)) (V (Proc.devRef .tc main_arg3))
          (V (Proc.devRef .tc main_arg4)) (V (Proc.devRef .tc main_arg5)) := by
  after_results_simp <;> rfl

/-- The perceptron's lines leave the edge list alone. -/
theorem after_mlp_arg1 (V : Valuation τ sig (Elt F)) :
    after opsMlp V (Proc.devRef .tc main_arg1) = V (Proc.devRef .tc main_arg1) := by
  after_results_simp <;> rfl

set_option maxRecDepth 65536 in
set_option maxHeartbeats 400000000 in
/-- From any contents, the propagation's lines leave in the result buffer the propagation of the edge list and of the
    matrix found in the perceptron's result buffer. -/
theorem after_tail (W : Valuation τ sig (Elt F)) :
    after opsTail W (Proc.devRef .tc main_v219)
      = Cert.Propagate.propagate (F := F) (W (Proc.devRef .tc main_arg1)) (W (Proc.devRef .tc main_v9)) := by
  after_results_simp <;> rfl

end Cert.ReferenceIdeal.RefRun

end
-- ==== Proof.RefResult.lean ====
import proofs.«177825_j66228395705230_1_alg».proof.Proof.RefRun
import proofs.«177825_j66228395705230_1_alg».proof.Proof.LibTailOps
import proofs.«177825_j66228395705230_1_alg».proof.Proof.Mlp

/-!
# What the idealized reference computes

The reference's run, read: its result is the propagation of the edge list and of the perceptron of the other five
arguments, where the perceptron in the host's spelling is the row function `mlp`; no line writes an argument.
-/

noncomputable section

namespace Cert.ReferenceIdeal.Result

open Cert.ReferenceIdeal Cert.ReferenceIdeal.Gen Cert.ReferenceIdeal.RefRun Cert.LibTailOps
open Idealize.ShloMosaic Idealize.ShloMosaic.TcCoe Idealize.SL.Sem Idealize.ShloMosaic.StableHlo

variable {F : FTy → Type} [FloatOps F]

/-- The class of references the program's lines write: every reference but the six arguments. -/
abbrev NotArg : Ref sig .tc → Prop := fun y => 6 ≤ y.idx.val

theorem opsMlp_writes : (opsMlp : List (HloOp τ sig (Elt F))).Forall (WritesOne NotArg) := by
  writes_one_each
theorem opsTail_writes : (opsTail : List (HloOp τ sig (Elt F))).Forall (WritesOne NotArg) := by
  writes_one_each

/-- An argument's buffer is written by no line. -/
theorem after_arg (V : Valuation τ sig (Elt F)) (r : Ref sig .tc) (hr : r.idx.val < 6) :
    after ops V (Proc.devRef .tc r) = V (Proc.devRef .tc r) := by
  show after (opsMlp ++ opsTail) V (Proc.devRef .tc r) = _
  rw [after_append, after_keeps _ _ opsTail_writes (by show ¬ 6 ≤ r.idx.val; omega),
    after_keeps _ _ opsMlp_writes (by show ¬ 6 ≤ r.idx.val; omega)]

/-- The result buffer after all the lines. -/
theorem after_result (V : Valuation τ sig (Elt F)) :
    after ops V (Proc.devRef .tc main_v219)
      = Cert.Propagate.propagate (F := F) (V (Proc.devRef .tc main_arg1))
          (hidden (V (Proc.devRef .tc main_arg0)) (V (Proc.devRef .tc main_arg2)) (V (Proc.devRef .tc main_arg3))
            (V (Proc.devRef .tc main_arg4)) (V (Proc.devRef .tc main_arg5))) := by
  show after (opsMlp ++ opsTail) V (Proc.devRef .tc main_v219) = _
  rw [after_append, after_tail, after_mlp_arg1, after_mlp_v9]

/-- The run, read. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v219)
          = Cert.Propagate.propagate (F := F) (m ((c.tc : Thread nD τ).loc main_arg1))
              (hidden (m ((c.tc : Thread nD τ).loc main_arg0)) (m ((c.tc : Thread nD τ).loc main_arg2))
                (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v219).trans (after_result _),
      (h c main_arg0).trans (after_arg _ main_arg0 (by decide)),
      (h c main_arg1).trans (after_arg _ main_arg1 (by decide)),
      (h c main_arg2).trans (after_arg _ main_arg2 (by decide)),
      (h c main_arg3).trans (after_arg _ main_arg3 (by decide)),
      (h c main_arg4).trans (after_arg _ main_arg4 (by decide)),
      (h c main_arg5).trans (after_arg _ main_arg5 (by decide))⟩)
    (run_seq scopedRefs_eq scopedSems_eq defs main (fun _ => ops) main_eq (fun _ => ops_sub) m ρ)

/-- At the ideal values the host's perceptron is the row function. -/
theorem hidden_eq (x0 : S100000x512.Idx → EReal) (x2 : S512x256.Idx → EReal) (x3 : S256.Idx → EReal)
    (x4 : S256x40.Idx → EReal) (x5 : S40.Idx → EReal) :
    hidden (F := Ideal) x0 x2 x3 x4 x5 = Cert.Mlp.mlp 100000 512 256 40 x0 x2 x3 x4 x5 :=
  Cert.Mlp.mlp_host (A := 100000) (K := 512) (H := 256) (N := 40) x0 x2 x3 x4 x5
    bcast_S256_S1x256_1 bcast_S1x256_S100000x256_0_1 bcast_S_S100000x256
    bcast_S40_S1x40_1 bcast_S1x40_S100000x40_0_1 bcast_S_S100000x40

end Cert.ReferenceIdeal.Result

end
-- ==== Proof.lean ====
/- The two programs are the same computation at the ideal values.

   Both apply a two-layer perceptron  h = relu (relu (x·W1 + b1)·W2 + b2)  to 100000 rows and then the same host
   computation to `h` and the edge list: degree-normalised edge weights and ten steps
   `z ← 0.9 · segment_sum (weight · z[src]) + 0.1 · h`. The kernel computes `h` in one pallas_call over fifty blocks of
   2000 rows, with its matrix operands narrowed to bf16; the reference multiplies whole matrices on the host. At the
   ideal values narrowing is the identity and both matrix products are the same sums, and an entry of the perceptron
   depends on its own row only, so the fifty blocks assemble to the reference's matrix (Proof/Mlp.lean,
   Proof/KernelIdealValue.lean, Proof/RefResult.lean). What follows the perceptron is spelt once (Proof/Propagate.lean)
   and both programs' later lines are read to it (Proof/KernelIdealTail.lean, Proof/RefRun.lean); so the two results
   are equal whatever the edge list holds, and no finiteness of the inputs is used.

   The frames: the kernel's program runs by the launch theorem for a pallas_call followed by host lines, its body's
   triple by symbolic execution (Proof/KernelAround.lean, Proof/KernelRun.lean and their idealized twins); the
   reference is a straight line of host operations. No line of either program writes an argument. The ideal pass
   rewrote nothing, so `preserves` has no conjunct. -/
import proofs.«177825_j66228395705230_1_alg».proof.Defs
import proofs.«177825_j66228395705230_1_alg».proof.Proof.Gen.Kernel
import proofs.«177825_j66228395705230_1_alg».proof.Proof.Gen.KernelIdeal
import proofs.«177825_j66228395705230_1_alg».proof.Proof.Gen.ReferenceIdeal
import proofs.«177825_j66228395705230_1_alg».proof.Proof.Gen.Pre_finite_inputs
import proofs.«177825_j66228395705230_1_alg».proof.Proof.KernelRun
import proofs.«177825_j66228395705230_1_alg».proof.Proof.KernelIdealValue
import proofs.«177825_j66228395705230_1_alg».proof.Proof.RefResult
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Around.frame (F := Bits) m ρ

theorem frame_ki : Cert.frame_KernelIdeal := fun m ρ _ => Cert.KernelIdeal.Around.frame (F := Ideal) m ρ

theorem frame_ri : Cert.frame_ReferenceIdeal := fun m ρ _ =>
  (θ_run Cert.ReferenceIdeal.defs _ _).mono (fun _ h c => (h c).2) (Cert.ReferenceIdeal.Result.run (F := Ideal) m ρ)

theorem preserves : Cert.preserves_Kernel_KernelIdeal := trivial

/-- Both runs end with the propagation of the edge list and the perceptron of the other arguments. -/
theorem algebraic : Cert.algebraic_KernelIdeal_ReferenceIdeal := by
  intro m ρ m' ρ' _ hagree
  refine ⟨fun c => Cert.Propagate.propagate (F := Ideal) (m ((c.tc : Thread Cert.KernelIdeal.nD Cert.KernelIdeal.τ).loc Cert.KernelIdeal.main_arg1))
      (Cert.KernelIdeal.Result.H m c), Cert.KernelIdeal.Result.run m ρ, ?_⟩
  refine (θ_run Cert.ReferenceIdeal.defs _ _).mono (fun _ h c => ⟨(h c).1.trans ?_, (h c).2⟩)
    (Cert.ReferenceIdeal.Result.run (F := Ideal) m' ρ')
  rw [Cert.ReferenceIdeal.Result.hidden_eq, (hagree c).1, (hagree c).2.1, (hagree c).2.2.1, (hagree c).2.2.2.1,
    (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
